-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S4x64x64 : Shape := ⟨3, ![4, 64, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S64x128 .f32) (main_arg3 : FVec F S64 .f32) (main_arg4 : FVec F S4x64x64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S4x64x64 : Shape := ⟨3, ![4, 64, 64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64x64 : Shape := ⟨3, ![1, 64, 64]⟩

abbrev nBuf : Space → Nat
  | .hbm => 130
  | .vmem => 42
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S4x64x64, .f32⟩
  | 5 => ⟨S64x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S128x64, .f32⟩
  | 48 => ⟨S1x64, .f32⟩
  | 49 => ⟨S100000x64, .f32⟩
  | 50 => ⟨S100000x64, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64x64, .f32⟩
  | 68 => ⟨S64x64, .f32⟩
  | 69 => ⟨S100000x64, .f32⟩
  | 70 => ⟨S1700000x1, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x64, .f32⟩
  | 81 => ⟨S1700000x64, .f32⟩
  | 82 => ⟨S_, .f32⟩
  | 83 => ⟨S100000x64, .f32⟩
  | 84 => ⟨S1700000x1, .i32⟩
  | 85 => ⟨S100000x64, .f32⟩
  | 86 => ⟨S1x64x64, .f32⟩
  | 87 => ⟨S64x64, .f32⟩
  | 88 => ⟨S100000x64, .f32⟩
  | 89 => ⟨S1700000x1, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x64, .f32⟩
  | 100 => ⟨S1700000x64, .f32⟩
  | 101 => ⟨S_, .f32⟩
  | 102 => ⟨S100000x64, .f32⟩
  | 103 => ⟨S1700000x1, .i32⟩
  | 104 => ⟨S100000x64, .f32⟩
  | 105 => ⟨S1x64x64, .f32⟩
  | 106 => ⟨S64x64, .f32⟩
  | 107 => ⟨S100000x64, .f32⟩
  | 108 => ⟨S1700000x1, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64x64, .f32⟩
  | 125 => ⟨S64x64, .f32⟩
  | 126 => ⟨S100000x64, .f32⟩
  | 127 => ⟨S64x64, .f32⟩
  | _ => ⟨S100000x128, .f32⟩

abbrev hbmTy0_1 (i : Nat) : BufTy := match i % 128 with
  | 0 => ⟨S1x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v93) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v96) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S4x64x64 : Shape := ⟨3, ![4, 64, 64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1x64 : Shape := ⟨2, ![1, 64]⟩
abbrev S1700000x64 : Shape := ⟨2, ![1700000, 64]⟩
abbrev S1x64x64 : Shape := ⟨3, ![1, 64, 64]⟩

abbrev nBuf : Space → Nat
  | .hbm => 204
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S4x64x64, .f32⟩
  | 5 => ⟨S64x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S128x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x64x64, .f32⟩
  | 82 => ⟨S64x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x64, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S_, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1700000x1, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S1x64x64, .f32⟩
  | 26 => ⟨S64x64, .f32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S1700000x1, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x64, .f32⟩
  | 46 => ⟨S1700000x64, .f32⟩
  | 47 => ⟨S_, .f32⟩
  | 48 => ⟨S100000x64, .f32⟩
  | 49 => ⟨S1700000x1, .i32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S1x64x64, .f32⟩
  | 62 => ⟨S64x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S64x64, .f32⟩
  | 72 => ⟨S100000x64, .f32⟩
  | 73 => ⟨S1x64, .f32⟩
  | 74 => ⟨S100000x64, .f32⟩
  | 75 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call3_cst : Ref sig .tc := ⟨.hbm, 124, rfl⟩
abbrev main_call3_v0 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_cst_24 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_25 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_26 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_call4_cst : Ref sig .tc := ⟨.hbm, 160, rfl⟩
abbrev main_call4_v0 : Ref sig .tc := ⟨.hbm, 161, rfl⟩
abbrev main_v116 : Ref sig .tc := ⟨.hbm, 162, rfl⟩
abbrev main_v117 : Ref sig .tc := ⟨.hbm, 163, rfl⟩
abbrev main_c_27 : Ref sig .tc := ⟨.hbm, 164, rfl⟩
abbrev main_v118 : Ref sig .tc := ⟨.hbm, 165, rfl⟩
abbrev main_v119 : Ref sig .tc := ⟨.hbm, 166, rfl⟩
abbrev main_c_28 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_29 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_30 : Ref sig .tc := ⟨.hbm, 179, rfl⟩
abbrev main_v130 : Ref sig .tc := ⟨.hbm, 180, rfl⟩
abbrev main_v131 : Ref sig .tc := ⟨.hbm, 181, rfl⟩
abbrev main_cst_31 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_32 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_33 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call5_cst : Ref sig .tc := ⟨.hbm, 196, rfl⟩
abbrev main_call5_v0 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The mathematics of one propagation network on the extended reals, entry by entry.

  A dense map sends a row block `x : [n, K]` to `x · w + b`, the bias row `b : [1, d]` added to every row; the rectifier
  takes the larger of an entry and the zero word's value; a propagation layer first mixes the aggregated features with
  the initial residual, `hh = c₁ · agg + c₂ · x0`, and then returns `max (A · hh + B · (hh · w)) 0`.
  Entry (r, j) of each of these reads row r of the row operands, column j of the weight and entry j of the bias — nothing
  else —, which is why a row block of the result is the same function of the row block of the operands: the
  congruence lemmas below say exactly that, and nothing here needs an entry to be finite (sums and products on the
  extended reals are only ever compared term by term).
-/
import Idealize.ShloMosaic.PureOps.Ideal
import Idealize.ShloMosaic.PureOps.Ideal.Laws
import Idealize.ShloMosaic.Lib.ValueIdx
import Idealize.ShloMosaic.Lib.Pipeline.Value
import proofs.«152299_j41729902247981_1_alg».proof.Proof.LibDense

noncomputable section

namespace Cert.Gcn

open Idealize.ShloMosaic Idealize.ShloMosaic.ValueIdx Cert.LibDense

/-- A matrix of extended reals with `n` rows and `d` columns. -/
abbrev Mat (n d : ℕ) : Type := (⟨2, ![n, d]⟩ : Shape).Idx → EReal

/-- The value of the zero word. -/
abbrev zeroF : EReal := Ideal.ofBits .f32 0x00000000#32
/-- The weight of the aggregated features in the residual mix (the word both programs print for 1 − α). -/
abbrev cAgg : EReal := Ideal.ofBits .f32 0x3F666666#32
/-- The weight of the initial residual in the mix (the word both programs print for α). -/
abbrev cRes : EReal := Ideal.ofBits .f32 0x3DCCCCCD#32

/-- `x · w + b`, the bias row added to every row. -/
def affine {n K d : ℕ} (x : Mat n K) (w : Mat K d) (b : Mat 1 d) : Mat n d :=
  fun i => prod x w i + b (ix2 ⟨0, Nat.one_pos⟩ (i 1))

/-- The rectifier, entry by entry. -/
def relu {n d : ℕ} (y : Mat n d) : Mat n d := fun i => max (y i) zeroF

/-- The residual mix `c₁ · agg + c₂ · x0`. -/
def mix {n d : ℕ} (agg x0 : Mat n d) : Mat n d := fun i => cAgg * agg i + cRes * x0 i

/-- One propagation layer: `max (A · hh + B · (hh · w)) 0` with `hh` the residual mix, `A` and `B` given by their words. -/
def layer {n d : ℕ} (A B : BitVec 32) (agg x0 : Mat n d) (w : Mat d d) : Mat n d :=
  fun i => max (Ideal.ofBits .f32 A * mix agg x0 i + Ideal.ofBits .f32 B * prod (mix agg x0) w i) zeroF

/-! ## An entry depends on one row of the row operands and one column of the weight -/

theorem prod_congr {n n' K d : ℕ} (a : Mat n K) (a' : Mat n' K) (w w' : Mat K d)
    (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    prod a w i = prod a' w' i' := by
  unfold prod
  exact Finset.sum_congr rfl (fun k _ => congrArg₂ (· * ·) (ha k) (hw k))

theorem affine_congr {n n' K d : ℕ} (a : Mat n K) (a' : Mat n' K) (w w' : Mat K d) (b b' : Mat 1 d)
    (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1)))
    (hb : b (ix2 ⟨0, Nat.one_pos⟩ (i 1)) = b' (ix2 ⟨0, Nat.one_pos⟩ (i' 1))) :
    affine a w b i = affine a' w' b' i' := by
  unfold affine
  rw [prod_congr a a' w w' i i' ha hw, hb]

theorem relu_congr {n n' d : ℕ} (y : Mat n d) (y' : Mat n' d)
    (i : (⟨2, ![n, d]⟩ : Shape).Idx) (i' : (⟨2, ![n', d]⟩ : Shape).Idx) (h : y i = y' i') :
    relu y i = relu y' i' := by
  unfold relu
  rw [h]

theorem layer_congr {n n' d : ℕ} (A B : BitVec 32) (agg x0 : Mat n d) (agg' x0' : Mat n' d) (w w' : Mat d d)
    (i : (⟨2, ![n, d]⟩ : Shape).Idx) (i' : (⟨2, ![n', d]⟩ : Shape).Idx)
    (hagg : ∀ k : Fin d, agg (ix2 (i 0) k) = agg' (ix2 (i' 0) k)) (hx0 : ∀ k : Fin d, x0 (ix2 (i 0) k) = x0' (ix2 (i' 0) k))
    (hw : ∀ k : Fin d, w (ix2 k (i 1)) = w' (ix2 k (i' 1))) (h1 : (i 1).val = (i' 1).val) :
    layer A B agg x0 w i = layer A B agg' x0' w' i' := by
  have hmix : ∀ k : Fin d, mix agg x0 (ix2 (i 0) k) = mix agg' x0' (ix2 (i' 0) k) := fun k => by
    unfold mix
    rw [hagg k, hx0 k]
  have e1 : mix agg x0 i = mix agg x0 (ix2 (i 0) (i 1)) := congrArg _ (eq_ix2 i)
  have e2 : mix agg' x0' i' = mix agg' x0' (ix2 (i' 0) (i 1)) :=
    congrArg _ ((eq_ix2 i').trans (congrArg (ix2 (i' 0)) (show ((i' 1 : Fin d)) = (i 1 : Fin d) from Fin.ext h1.symm)))
  have hmi : mix agg x0 i = mix agg' x0' i' := by
    rw [e1, e2]
    exact hmix (i 1)
  unfold layer
  rw [hmi, prod_congr (mix agg x0) (mix agg' x0') w w' i i' hmix hw]

/-! ## The layout readings the two programs use around a dense map -/

/-- A bias vector `b : [d]` viewed as the row `[1, d]`, at entry (0, j), is `b j`. -/
theorem cast_row {d : ℕ} (b : (⟨1, ![d]⟩ : Shape).Idx → EReal) (h1 : (⟨1, ![d]⟩ : Shape).ShapeCasts ⟨2, ![1, d]⟩) (j : Fin d) :
    shapeCast ⟨2, ![1, d]⟩ b h1 (ix2 ⟨0, Nat.one_pos⟩ j) = b (ix1 j) := by
  refine (shapeCast_addUnit_apply ![d] b h1 _).trans (congrArg b (funext fun a => ?_))
  match a with
  | ⟨0, _⟩ => rfl

/-- A row `[1, d]` repeated down `n` rows, at entry (r, j), is the row's entry j. -/
theorem row_down {n d : ℕ} (b : Mat 1 d) (h2 : (⟨2, ![1, d]⟩ : Shape).Broadcasts ⟨2, ![n, d]⟩) (i : (⟨2, ![n, d]⟩ : Shape).Idx) :
    broadcastTo ⟨2, ![n, d]⟩ b h2 i = b (ix2 ⟨0, Nat.one_pos⟩ (i 1)) := by
  refine broadcastTo_apply _ h2 i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- The host's way to the same bias: `b : [d]` broadcast along axis 1 to `[1, d]`, then along both axes to `[n, d]`. -/
theorem bias_down {n d : ℕ} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (i : (⟨2, ![n, d]⟩ : Shape).Idx) :
    broadcastInDim ⟨2, ![n, d]⟩ ![0, 1] h2 (broadcastInDim ⟨2, ![1, d]⟩ ![1] h1 b) i = b (ix1 (i 1)) := by
  refine (broadcastInDim_apply ![0, 1] h2 _ i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine broadcastInDim_apply ![1] h1 b _ (ix1 (i 1)) (fun a => ?_)
    match a with
    | ⟨0, _⟩ =>
      show (i 1).val = if d = 1 then 0 else (i 1).val
      have hlt : (i 1).val < d := idx2_lt1 i
      split
      · omega
      · rfl

/-- A scalar word broadcast to any shape reads the word's value everywhere. -/
theorem scalar_everywhere {t : Shape} (A : BitVec 32) (dims : Fin 0 → Fin t.rank)
    (h : (⟨0, ![]⟩ : Shape).BroadcastsInDim t dims) (i : t.Idx) :
    broadcastInDim t dims h (constant (F := Ideal) ⟨0, ![]⟩ .f32 A) i = Ideal.ofBits .f32 A :=
  broadcastInDim_apply dims h _ i ix0 (fun a => a.elim0)

end Cert.Gcn

end
-- ==== Proof.Chain.lean ====
/-
  The two programs' shared host chain, named, and the reference's dense stages in the specification's terms.

  Both programs compute, with the same host operations applied to the same arguments: the source and target node of every
  edge with the self loops appended; the symmetric normalisation of an edge, 1/sqrt(deg) at its two ends; and, given node
  features h, the aggregation that gathers h at every edge's source, scales it by the edge's normalisation and adds it
  into the edge's target row. These are carried here as named functions and never opened: the two programs apply them to
  equal features, and that is all that is used.
  The reference's dense stages are host operations too: a dot_general with a transposed weight plus a bias broadcast down
  the rows, a maximum with zero, and the layer `max (A · hh + B · (hh · w)) 0`. Read at an entry they are the
  specification's functions.
-/
import proofs.«152299_j41729902247981_1_alg».proof.Proof.Gen.ReferenceIdeal
import proofs.«152299_j41729902247981_1_alg».proof.Proof.Spec

noncomputable section

namespace Cert.Gcn

open Idealize.ShloMosaic Idealize.ShloMosaic.ValueIdx Cert.LibDense Cert.ReferenceIdeal Cert.ReferenceIdeal.Gen

/-! ## The shared chain -/

/-- Source node of every edge, the self loops appended. -/
def rowOf (x1 : IVec S2x1600000 32) : IVec S1700000 32 :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- Target node of every edge, the self loops appended. -/
def colOf (x1 : IVec S2x1600000 32) : IVec S1700000 32 :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- A vector of row numbers as a gather's index column: a negative number counted from the end, then one column. -/
def wrap (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

section Floats
variable {F : FTy → Type} [FloatOps F]

/-- The degree of every node: ones added into the target rows. -/
def degOf (col : IVec S1700000 32) : FVec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 col) (broadcastInDim S1700000 ![] bcast_S_S1700000 (constant S_ .f32 0x3F800000#32))

/-- 1/sqrt(deg) where the degree is positive, zero elsewhere. -/
def dinvOf (col : IVec S1700000 32) : FVec F S100000 .f32 :=
  select (cmpf (F := F) .ogt (degOf col) (broadcastInDim S100000 ![] bcast_S_S100000 (constant S_ .f32 0x00000000#32)))
    (Host.rsqrt (degOf col)) (broadcastInDim S100000 ![] bcast_S_S100000 (id (constant S_ .f32 0x00000000#32)))

/-- The normalisation of every edge, from the edges' source and target rows: the inverse root degree at the source times
    that at the target. -/
def normRC (row col : IVec S1700000 32) : FVec F S1700000 .f32 :=
  mulf (Host.gather gather_S100000_S1700000x1_S1700000_n_0_n_n_0_1_1 (dinvOf col) (wrap row))
    (Host.gather gather_S100000_S1700000x1_S1700000_n_0_n_n_0_1_1 (dinvOf col) (wrap col))

/-- The normalisation of every edge of the edge argument. -/
def normOf (x1 : IVec S2x1600000 32) : FVec F S1700000 .f32 := normRC (rowOf x1) (colOf x1)

/-- The aggregation: features gathered at every edge's source, scaled by the edge's normalisation, added into its target row. -/
def aggOf (nrm : FVec F S1700000 .f32) (row col : IVec S1700000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 col)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrap row)))

/-- Layer l's weight: slice l of the stacked weights. -/
def w0Of (x4 : FVec F S4x64x64 .f32) : FVec F S64x64 .f32 := shapeCast _ (extractStridedSlice S1x64x64 ![0, 0, 0] x4 slices_S4x64x64_S1x64x64_0_0_0) shapeCasts_S1x64x64_S64x64
def w1Of (x4 : FVec F S4x64x64 .f32) : FVec F S64x64 .f32 := shapeCast _ (extractStridedSlice S1x64x64 ![1, 0, 0] x4 slices_S4x64x64_S1x64x64_1_0_0) shapeCasts_S1x64x64_S64x64
def w2Of (x4 : FVec F S4x64x64 .f32) : FVec F S64x64 .f32 := shapeCast _ (extractStridedSlice S1x64x64 ![2, 0, 0] x4 slices_S4x64x64_S1x64x64_2_0_0) shapeCasts_S1x64x64_S64x64
def w3Of (x4 : FVec F S4x64x64 .f32) : FVec F S64x64 .f32 := shapeCast _ (extractStridedSlice S1x64x64 ![3, 0, 0] x4 slices_S4x64x64_S1x64x64_3_0_0) shapeCasts_S1x64x64_S64x64

/-- The first linear map's weight and the last one's, transposed. -/
def wT0Of (x2 : FVec F S64x128 .f32) : FVec F S128x64 .f32 := transpose S128x64 [1, 0] x2 transposes_S64x128_S128x64_1_0
def wT5Of (x5 : FVec F S64x64 .f32) : FVec F S64x64 .f32 := transpose S64x64 [1, 0] x5 transposes_S64x64_S64x64_1_0

/-! ## The reference's dense stages as it spells them -/

def x0pR (x0 : FVec F S100000x128 .f32) (x2 : FVec F S64x128 .f32) (x3 : FVec F S64 .f32) : FVec F S100000x64 .f32 :=
  addf (Host.dotGeneral dot_S100000x128_S128x64_S100000x64_1_0_0_1_n_n none x0 (wT0Of x2))
    (broadcastInDim S100000x64 ![0, 1] bcast_S1x64_S100000x64_0_1 (broadcastInDim S1x64 ![1] bcast_S64_S1x64_1 x3))

def reluR (y : FVec F S100000x64 .f32) : FVec F S100000x64 .f32 :=
  maximumf y (broadcastInDim S100000x64 ![] bcast_S_S100000x64 (constant S_ .f32 0x00000000#32))

def mixR (agg x0p : FVec F S100000x64 .f32) : FVec F S100000x64 .f32 :=
  addf (mulf (broadcastInDim S100000x64 ![] bcast_S_S100000x64 (constant S_ .f32 0x3F666666#32)) agg)
    (mulf (broadcastInDim S100000x64 ![] bcast_S_S100000x64 (constant S_ .f32 0x3DCCCCCD#32)) x0p)

def layerR (A B : BitVec 32) (agg x0p : FVec F S100000x64 .f32) (w : FVec F S64x64 .f32) : FVec F S100000x64 .f32 :=
  reluR (addf (mulf (broadcastInDim S100000x64 ![] bcast_S_S100000x64 (constant S_ .f32 A)) (mixR agg x0p))
    (mulf (broadcastInDim S100000x64 ![] bcast_S_S100000x64 (constant S_ .f32 B))
      (Host.dotGeneral dot_S100000x64_S64x64_S100000x64_1_0_0_1_n_n none (mixR agg x0p) w)))

def outR (h : FVec F S100000x64 .f32) (x5 : FVec F S64x64 .f32) (x6 : FVec F S64 .f32) : FVec F S100000x64 .f32 :=
  addf (Host.dotGeneral dot_S100000x64_S64x64_S100000x64_1_0_0_1_n_n none h (wT5Of x5))
    (broadcastInDim S100000x64 ![0, 1] bcast_S1x64_S100000x64_0_1 (broadcastInDim S1x64 ![1] bcast_S64_S1x64_1 x6))

/-- The whole reference, stage by stage. -/
def refOut (x0 : FVec F S100000x128 .f32) (x1 : IVec S2x1600000 32) (x2 : FVec F S64x128 .f32) (x3 : FVec F S64 .f32)
    (x4 : FVec F S4x64x64 .f32) (x5 : FVec F S64x64 .f32) (x6 : FVec F S64 .f32) : FVec F S100000x64 .f32 :=
  outR
    (layerR 0x3F61D8F9#32 0x3DF1383B#32 (aggOf (normOf x1) (rowOf x1) (colOf x1)
      (layerR 0x3F588995#32 0x3E1DD9AD#32 (aggOf (normOf x1) (rowOf x1) (colOf x1)
        (layerR 0x3F46E010#32 0x3E647FBE#32 (aggOf (normOf x1) (rowOf x1) (colOf x1)
          (layerR 0x3F183370#32 0x3ECF991F#32 (aggOf (normOf x1) (rowOf x1) (colOf x1) (reluR (x0pR x0 x2 x3))) (x0pR x0 x2 x3) (w0Of x4)))
          (x0pR x0 x2 x3) (w1Of x4)))
        (x0pR x0 x2 x3) (w2Of x4)))
      (x0pR x0 x2 x3) (w3Of x4))
    x5 x6

end Floats

/-! ## The same network in the specification's terms -/

/-- A bias vector as the row `[1, d]` the dense map reads. -/
def rowVec {d : ℕ} (b : (⟨1, ![d]⟩ : Shape).Idx → EReal) : Mat 1 d := fun i => b (ix1 (i 1))

/-- The network over the extended reals: two dense maps around four propagation layers, each layer fed by the aggregation
    of the previous one's output. -/
def specOut (x0 : Mat 100000 128) (nrm : FVec Ideal S1700000 .f32) (row col : IVec S1700000 32)
    (wT0 : Mat 128 64) (b0 : Mat 1 64) (w0 w1 w2 w3 : Mat 64 64) (wT5 : Mat 64 64) (b5 : Mat 1 64) : Mat 100000 64 :=
  affine
    (layer 0x3F61D8F9#32 0x3DF1383B#32 (aggOf nrm row col
      (layer 0x3F588995#32 0x3E1DD9AD#32 (aggOf nrm row col
        (layer 0x3F46E010#32 0x3E647FBE#32 (aggOf nrm row col
          (layer 0x3F183370#32 0x3ECF991F#32 (aggOf nrm row col (relu (affine x0 wT0 b0))) (affine x0 wT0 b0) w0))
          (affine x0 wT0 b0) w1))
        (affine x0 wT0 b0) w2))
      (affine x0 wT0 b0) w3)
    wT5 b5

theorem x0pR_eq (x0 : FVec Ideal S100000x128 .f32) (x2 : FVec Ideal S64x128 .f32) (x3 : FVec Ideal S64 .f32) :
    x0pR x0 x2 x3 = affine (n := 100000) (K := 128) (d := 64) x0 (wT0Of x2) (rowVec x3) := by
  funext i
  unfold x0pR affine
  exact congrArg₂ (· + ·) (dotGeneral_plain (M := 100000) (K := 128) (N := 64) .single x0 (wT0Of x2) i)
    (bias_down (n := 100000) (d := 64) x3 bcast_S64_S1x64_1 bcast_S1x64_S100000x64_0_1 i)

theorem outR_eq (h : FVec Ideal S100000x64 .f32) (x5 : FVec Ideal S64x64 .f32) (x6 : FVec Ideal S64 .f32) :
    outR h x5 x6 = affine (n := 100000) (K := 64) (d := 64) h (wT5Of x5) (rowVec x6) := by
  funext i
  unfold outR affine
  exact congrArg₂ (· + ·) (dotGeneral_plain (M := 100000) (K := 64) (N := 64) .single h (wT5Of x5) i)
    (bias_down (n := 100000) (d := 64) x6 bcast_S64_S1x64_1 bcast_S1x64_S100000x64_0_1 i)

theorem reluR_eq (y : FVec Ideal S100000x64 .f32) : reluR y = relu (n := 100000) (d := 64) y := by
  funext i
  unfold reluR relu
  exact congrArg (max (y i)) (scalar_everywhere 0x00000000#32 ![] bcast_S_S100000x64 i)

theorem mixR_eq (agg x0p : FVec Ideal S100000x64 .f32) : mixR agg x0p = mix (n := 100000) (d := 64) agg x0p := by
  funext i
  unfold mixR mix
  exact congrArg₂ (· + ·)
    (congrArg (· * agg i) (scalar_everywhere 0x3F666666#32 ![] bcast_S_S100000x64 i))
    (congrArg (· * x0p i) (scalar_everywhere 0x3DCCCCCD#32 ![] bcast_S_S100000x64 i))

theorem layerR_eq (A B : BitVec 32) (agg x0p : FVec Ideal S100000x64 .f32) (w : FVec Ideal S64x64 .f32) :
    layerR A B agg x0p w = layer (n := 100000) (d := 64) A B agg x0p w := by
  unfold layerR
  rw [reluR_eq, mixR_eq]
  funext i
  unfold relu layer
  exact congrArg (max · zeroF) (congrArg₂ (· + ·)
    (congrArg (· * mix agg x0p i) (scalar_everywhere A ![] bcast_S_S100000x64 i))
    (congrArg₂ (· * ·) (scalar_everywhere B ![] bcast_S_S100000x64 i)
      (dotGeneral_plain (M := 100000) (K := 64) (N := 64) .single (mix agg x0p) w i)))

/-- The reference, stage by stage, is the specification's network of its arguments. -/
theorem refOut_eq (x0 : FVec Ideal S100000x128 .f32) (x1 : IVec S2x1600000 32) (x2 : FVec Ideal S64x128 .f32) (x3 : FVec Ideal S64 .f32)
    (x4 : FVec Ideal S4x64x64 .f32) (x5 : FVec Ideal S64x64 .f32) (x6 : FVec Ideal S64 .f32) :
    refOut x0 x1 x2 x3 x4 x5 x6
      = specOut x0 (normOf x1) (rowOf x1) (colOf x1) (wT0Of x2) (rowVec x3) (w0Of x4) (w1Of x4) (w2Of x4) (w3Of x4) (wT5Of x5) (rowVec x6) := by
  unfold refOut specOut
  simp only [outR_eq, layerR_eq, reluR_eq, x0pR_eq]

end Cert.Gcn

end
-- ==== Proof.RefEq.lean ====
/-
  The reference program's result is the named stages' composition.

  The run of the reference states its result as one composed term of the host operations over the arguments. That term is,
  operation for operation, the shared chain and the reference's dense stages applied in order: unfolding the names gives
  it back.
-/
import proofs.«152299_j41729902247981_1_alg».proof.Proof.RefRun
import proofs.«152299_j41729902247981_1_alg».proof.Proof.Chain

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 65536 in
/-- The reference's composed result term is `refOut` of the argument arrays. -/
theorem res_eq (m : (ℓ : Loc nD τ sig) → Buf (Elt F) ℓ) (c : Dev nD) :
    Cert.ReferenceIdeal.ValueP.res_main_v148 m c
      = refOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v148
  rfl

end Cert.Gcn

end
-- ==== Proof.KRun.lean ====
/-
  The kernel program's run with its result named.

  @main is fourteen segments: host stretches and six kernel launches in turn. The contents of every unscoped buffer at each
  segment boundary form a chain from the launch memory: a host stretch's operations applied to the previous contents, a
  launch's arrays at what its write-backs leave and every other buffer as it was. Every weakly fair execution terminates,
  without a fault, in a state whose unscoped buffers hold the last link of that chain; read at the result buffer this
  names the result, and read at the argument buffers it gives them back unchanged.
-/
import proofs.«152299_j41729902247981_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v99) = W14 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v99 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Named

end
-- ==== Proof.Payload.lean ====
/-
  What each kernel body stores, as the specification's function of the blocks it loads.

  On the extended reals a change of float format is the identity, a cast of a block to its own shape is the block, and
  the vector unit's product of a block by a weight into a zero accumulator is the row-by-column sum. So the first body
  stores `x · w + b` and its rectified value, each propagation body stores `max (A · hh + B · (hh · w)) 0` of the mix
  `hh` of its two row blocks, and the last body stores `x · w + b` again.
-/
import proofs.«152299_j41729902247981_1_alg».proof.Proof.Gen.KernelIdeal.Skeleton
import proofs.«152299_j41729902247981_1_alg».proof.Proof.Spec

noncomputable section

namespace Cert.Gcn.Pay

open Idealize.ShloMosaic Idealize.ShloMosaic.ValueIdx Cert.LibDense Cert.KernelIdeal Cert.KernelIdeal.Gen Cert.Gcn

/-- The first body's pre-activation: the dense map of its row block, the transposed weight and the bias row. -/
theorem pre0 (v0 : Vec Ideal S5000x128 .f32) (v2 : Vec Ideal S128x64 .f32) (v6 : Vec Ideal S1x64 .f32) :
    k0_pay1 (F := Ideal) v0 v2 v6 = affine v0 v2 v6 := by
  funext j
  have hm := matmul_plain (M := 5000) (K := 128) (N := 64) (φ₁ := .bf16) (φ₂ := .bf16)
    (truncf .bf16 v0 bitsLt_bf16_f32) (truncf .bf16 v2 bitsLt_bf16_f32) j
  have hb := row_down (n := 5000) (d := 64) v6 broadcasts_S1x64_S5000x64 j
  unfold k0_pay1
  simp only [shapeCast_self]
  exact congrArg₂ (· + ·) hm hb

/-- The first body's second store: the rectifier of the same dense map. -/
theorem act0 (v0 : Vec Ideal S5000x128 .f32) (v2 : Vec Ideal S128x64 .f32) (v6 : Vec Ideal S1x64 .f32) :
    k0_pay2 (F := Ideal) v0 v2 v6 = relu (affine v0 v2 v6) := by
  funext j
  unfold k0_pay2
  rw [pre0]
  rfl

/-- Layer 1's body stores the propagation layer of its three loaded blocks, with this layer's two words. -/
theorem lay1 (v0 v2 : Vec Ideal S5000x64 .f32) (v10 : Vec Ideal S64x64 .f32) :
    k1_pay1 (F := Ideal) v0 v2 v10 = layer 0x3F183370#32 0x3ECF991F#32 v0 v2 v10 := by
  funext j
  have hm := matmul_plain (M := 5000) (K := 64) (N := 64) (φ₁ := .bf16) (φ₂ := .bf16)
    (truncf .bf16 (mix v0 v2) bitsLt_bf16_f32) (truncf .bf16 v10 bitsLt_bf16_f32) j
  unfold k1_pay1
  simp only [shapeCast_self]
  exact congrArg (fun z => max (Ideal.ofBits .f32 0x3F183370#32 * mix v0 v2 j + Ideal.ofBits .f32 0x3ECF991F#32 * z) zeroF) hm

/-- Layer 2's body stores the propagation layer of its three loaded blocks, with this layer's two words. -/
theorem lay2 (v0 v2 : Vec Ideal S5000x64 .f32) (v10 : Vec Ideal S64x64 .f32) :
    k2_pay1 (F := Ideal) v0 v2 v10 = layer 0x3F46E010#32 0x3E647FBE#32 v0 v2 v10 := by
  funext j
  have hm := matmul_plain (M := 5000) (K := 64) (N := 64) (φ₁ := .bf16) (φ₂ := .bf16)
    (truncf .bf16 (mix v0 v2) bitsLt_bf16_f32) (truncf .bf16 v10 bitsLt_bf16_f32) j
  unfold k2_pay1
  simp only [shapeCast_self]
  exact congrArg (fun z => max (Ideal.ofBits .f32 0x3F46E010#32 * mix v0 v2 j + Ideal.ofBits .f32 0x3E647FBE#32 * z) zeroF) hm

/-- Layer 3's body stores the propagation layer of its three loaded blocks, with this layer's two words. -/
theorem lay3 (v0 v2 : Vec Ideal S5000x64 .f32) (v10 : Vec Ideal S64x64 .f32) :
    k3_pay1 (F := Ideal) v0 v2 v10 = layer 0x3F588995#32 0x3E1DD9AD#32 v0 v2 v10 := by
  funext j
  have hm := matmul_plain (M := 5000) (K := 64) (N := 64) (φ₁ := .bf16) (φ₂ := .bf16)
    (truncf .bf16 (mix v0 v2) bitsLt_bf16_f32) (truncf .bf16 v10 bitsLt_bf16_f32) j
  unfold k3_pay1
  simp only [shapeCast_self]
  exact congrArg (fun z => max (Ideal.ofBits .f32 0x3F588995#32 * mix v0 v2 j + Ideal.ofBits .f32 0x3E1DD9AD#32 * z) zeroF) hm

/-- Layer 4's body stores the propagation layer of its three loaded blocks, with this layer's two words. -/
theorem lay4 (v0 v2 : Vec Ideal S5000x64 .f32) (v10 : Vec Ideal S64x64 .f32) :
    k4_pay1 (F := Ideal) v0 v2 v10 = layer 0x3F61D8F9#32 0x3DF1383B#32 v0 v2 v10 := by
  funext j
  have hm := matmul_plain (M := 5000) (K := 64) (N := 64) (φ₁ := .bf16) (φ₂ := .bf16)
    (truncf .bf16 (mix v0 v2) bitsLt_bf16_f32) (truncf .bf16 v10 bitsLt_bf16_f32) j
  unfold k4_pay1
  simp only [shapeCast_self]
  exact congrArg (fun z => max (Ideal.ofBits .f32 0x3F61D8F9#32 * mix v0 v2 j + Ideal.ofBits .f32 0x3DF1383B#32 * z) zeroF) hm

/-- The last body stores the dense map of its row block, the transposed weight and the bias row. -/
theorem out5 (v0 : Vec Ideal S5000x64 .f32) (v3 : Vec Ideal S64x64 .f32) (v7 : Vec Ideal S1x64 .f32) :
    k5_pay1 (F := Ideal) v0 v3 v7 = affine v0 v3 v7 := by
  funext j
  have hm := matmul_plain (M := 5000) (K := 64) (N := 64) (φ₁ := .bf16) (φ₂ := .bf16)
    (truncf .bf16 v0 bitsLt_bf16_f32) (truncf .bf16 v3 bitsLt_bf16_f32) j
  have hb := row_down (n := 5000) (d := 64) v7 broadcasts_S1x64_S5000x64 j
  unfold k5_pay1
  simp only [shapeCast_self]
  exact congrArg₂ (· + ·) hm hb

end Cert.Gcn.Pay

end
-- ==== Proof.Region0.lean ====
/-
  The first dense stage, from blocks to arrays.

  The grid has twenty points; point t loads rows [5000 t, 5000 t + 5000) of the feature array, the whole transposed
  weight and the whole bias row, and writes back rows [5000 t, 5000 t + 5000) of two arrays: the dense map of what it
  loaded and its rectified value. An entry of a dense map reads one row of the row operand, so what point t writes back is
  block t of the dense map of the WHOLE arrays; the twenty blocks tile the 100000 rows, so each array ends holding that
  function everywhere.
-/
import proofs.«152299_j41729902247981_1_alg».proof.Proof.Gen.KernelIdeal.Frame
import proofs.«152299_j41729902247981_1_alg».proof.Proof.Payload

noncomputable section

namespace Cert.Gcn.R0

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move together, one block per point; the weight and the bias
    stay at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19
    ∧ win0_4.index t (0 : Fin 2) = win0_3.index t (0 : Fin 2) ∧ win0_4.index t (1 : Fin 2) = 0 :=
  (by decide +kernel : ∀ t : Fin grid0.N, _)

/-- Every one of the twenty row blocks is some point's. -/
theorem idx_onto : ∀ q : Fin 20, ∃ t : Fin cfg0.N, win0_3.index t (0 : Fin 2) = q.val :=
  (by decide +kernel : ∀ q : Fin 20, ∃ t : Fin grid0.N, win0_3.index t (0 : Fin 2) = q.val)

/-- What point `t` writes back through window 3 is block `t` of the dense map of the whole arrays. -/
theorem flushed3 (c : Dev nD) (t : Fin cfg0.N) :
    (dat0 V c).flushed 3 t
      = ((cfg0.win 3).blk t).view.read (Elt Ideal) (affine (n := 100000) (K := 128) (d := 64) (V c main_arg0) (V c main_v30) (V c main_v31)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  rw [Pay.pre0]
  obtain ⟨e0, e1, e2, e3, e4, e5, e6, e7, e8, e9⟩ := idx_facts t
  funext j
  show affine (n := 5000) (K := 128) (d := 64) (iblk0 V c 0 t) (iblk0 V c 1 t) (iblk0 V c 2 t) j
    = affine (n := 100000) (K := 128) (d := 64) (V c main_arg0) (V c main_v30) (V c main_v31) (((cfg0.win 3).blk t).view.emb j)
  refine affine_congr _ _ _ _ _ _ j _ (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v30 (((cfg0.win 1).blk t).view.emb (ix2 k (j 1))) = V c main_v30 (ix2 k ((((cfg0.win 3).blk t).view.emb j) 1))
    refine congrArg (V c main_v30) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  · show V c main_v31 (((cfg0.win 2).blk t).view.emb (ix2 ⟨0, Nat.one_pos⟩ (j 1))) = V c main_v31 (ix2 ⟨0, Nat.one_pos⟩ ((((cfg0.win 3).blk t).view.emb j) 1))
    refine congrArg (V c main_v31) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- The same through window 4, with the rectifier. -/
theorem flushed4 (c : Dev nD) (t : Fin cfg0.N) :
    (dat0 V c).flushed 4 t
      = ((cfg0.win 4).blk t).view.read (Elt Ideal) (relu (affine (n := 100000) (K := 128) (d := 64) (V c main_arg0) (V c main_v30) (V c main_v31))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S1x64) hz]
  rw [Pay.act0]
  obtain ⟨e0, e1, e2, e3, e4, e5, e6, e7, e8, e9⟩ := idx_facts t
  funext j
  show relu (affine (n := 5000) (K := 128) (d := 64) (iblk0 V c 0 t) (iblk0 V c 1 t) (iblk0 V c 2 t)) j
    = relu (affine (n := 100000) (K := 128) (d := 64) (V c main_arg0) (V c main_v30) (V c main_v31)) (((cfg0.win 4).blk t).view.emb j)
  refine relu_congr _ _ j _ (affine_congr _ _ _ _ _ _ j _ (fun k => ?_) (fun k => ?_) ?_)
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · show V c main_v30 (((cfg0.win 1).blk t).view.emb (ix2 k (j 1))) = V c main_v30 (ix2 k ((((cfg0.win 4).blk t).view.emb j) 1))
    refine congrArg (V c main_v30) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_4.index t (1 : Fin 2) * 64 + 1 * (j 1).val; omega
  · show V c main_v31 (((cfg0.win 2).blk t).view.emb (ix2 ⟨0, Nat.one_pos⟩ (j 1))) = V c main_v31 (ix2 ⟨0, Nat.one_pos⟩ ((((cfg0.win 4).blk t).view.emb j) 1))
    refine congrArg (V c main_v31) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_4.index t (1 : Fin 2) * 64 + 1 * (j 1).val; omega

/-- An index of the array is in point `t`'s block of window 3 iff each coordinate is in the block's range. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32_0).slice (win0_3.rect t)).set ↔ _
  rw [View.set_slice_whole, Rect.mem_set_unit]
  exact Iff.rfl

theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v32_1).slice (win0_4.rect t)).set ↔ _
  rw [View.set_slice_whole, Rect.mem_set_unit]
  exact Iff.rfl

/-- Row r lies in the block of the point whose block index is r / 5000. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have ht' : win0_3.index t (0 : Fin 2) = (i 0).val / 5000 := ht
  obtain ⟨e0, e1, e2, e3, e4, e5, e6, e7, e8, e9⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have ht' : win0_3.index t (0 : Fin 2) = (i 0).val / 5000 := ht
  obtain ⟨e0, e1, e2, e3, e4, e5, e6, e7, e8, e9⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- After the region the pre-activation array holds the dense map of the arrays the region found. -/
theorem final3 (c : Dev nD) :
    (dat0 V c).arrAt 3 cfg0.N = affine (n := 100000) (K := 128) (d := 64) (V c main_arg0) (V c main_v30) (V c main_v31) :=
  (dat0 V c).arrAt_eq_of_cover 3 _ (fun t _ => flushed3 V c t) cover3

/-- And the activation array its rectified value. -/
theorem final4 (c : Dev nD) :
    (dat0 V c).arrAt 4 cfg0.N = relu (affine (n := 100000) (K := 128) (d := 64) (V c main_arg0) (V c main_v30) (V c main_v31)) :=
  (dat0 V c).arrAt_eq_of_cover 4 _ (fun t _ => flushed4 V c t) cover4

end Cert.Gcn.R0

end
-- ==== Proof.Region1.lean ====
/-
  Propagation layer 1, from blocks to the array.

  Point t of the twenty loads rows [5000 t, 5000 t + 5000) of the aggregated features and of the initial residual and the
  whole layer weight, and writes back the same rows of the layer's output. An entry of a propagation layer reads one row
  of each row operand, so what point t writes back is block t of the layer of the WHOLE arrays; the blocks tile the
  100000 rows.
-/
import proofs.«152299_j41729902247981_1_alg».proof.Proof.Gen.KernelIdeal.Frame
import proofs.«152299_j41729902247981_1_alg».proof.Proof.Payload

noncomputable section

namespace Cert.Gcn.R1

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move together, one block per point; the
    weight stays at block (0, 0). -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the twenty row blocks is some point's. -/
theorem idx_onto : ∀ q : Fin 20, ∃ t : Fin cfg1.N, win1_3.index t (0 : Fin 2) = q.val :=
  (by decide +kernel : ∀ q : Fin 20, ∃ t : Fin grid1.N, win1_3.index t (0 : Fin 2) = q.val)

/-- What point `t` writes back is block `t` of the layer of the whole arrays. -/
theorem flushed3 (c : Dev nD) (t : Fin cfg1.N) :
    (dat1 V c).flushed 3 t
      = ((cfg1.win 3).blk t).view.read (Elt Ideal) (layer (n := 100000) (d := 64) 0x3F183370#32 0x3ECF991F#32 (V c main_v45) (V c main_v32_0) (V c main_v47)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz]
  rw [Pay.lay1]
  obtain ⟨e0, e1, e2, e3, e4, e5, e6, e7⟩ := idx_facts t
  funext j
  show layer (n := 5000) (d := 64) 0x3F183370#32 0x3ECF991F#32 (iblk1 V c 0 t) (iblk1 V c 1 t) (iblk1 V c 2 t) j
    = layer (n := 100000) (d := 64) 0x3F183370#32 0x3ECF991F#32 (V c main_v45) (V c main_v32_0) (V c main_v47) (((cfg1.win 3).blk t).view.emb j)
  refine layer_congr 0x3F183370#32 0x3ECF991F#32 _ _ _ _ _ _ j _ (fun k => ?_) (fun k => ?_) (fun k => ?_) ?_
  · show V c main_v45 (((cfg1.win 0).blk t).view.emb (ix2 (j 0) k)) = V c main_v45 (ix2 ((((cfg1.win 3).blk t).view.emb j) 0) k)
    refine congrArg (V c main_v45) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_v32_0 (((cfg1.win 1).blk t).view.emb (ix2 (j 0) k)) = V c main_v32_0 (ix2 ((((cfg1.win 3).blk t).view.emb j) 0) k)
    refine congrArg (V c main_v32_0) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * k.val = k.val; omega
  · show V c main_v47 (((cfg1.win 2).blk t).view.emb (ix2 k (j 1))) = V c main_v47 (ix2 k ((((cfg1.win 3).blk t).view.emb j) 1))
    refine congrArg (V c main_v47) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  · show (j 1).val = win1_3.index t (1 : Fin 2) * 64 + 1 * (j 1).val
    omega

/-- An index of the array is in point `t`'s block iff each coordinate is in the block's range. -/
theorem mem_blk3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Row r lies in the block of the point whose block index is r / 5000. -/
theorem cover3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have ht' : win1_3.index t (0 : Fin 2) = (i 0).val / 5000 := ht
  obtain ⟨e0, e1, e2, e3, e4, e5, e6, e7⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array holds the layer of the arrays the region found. -/
theorem final3 (c : Dev nD) :
    (dat1 V c).arrAt 3 cfg1.N = layer (n := 100000) (d := 64) 0x3F183370#32 0x3ECF991F#32 (V c main_v45) (V c main_v32_0) (V c main_v47) :=
  (dat1 V c).arrAt_eq_of_cover 3 _ (fun t _ => flushed3 V c t) cover3

end Cert.Gcn.R1

end
-- ==== Proof.Region2.lean ====
/-
  Propagation layer 2, from blocks to the array.

  Point t of the twenty loads rows [5000 t, 5000 t + 5000) of the aggregated features and of the initial residual and the
  whole layer weight, and writes back the same rows of the layer's output. An entry of a propagation layer reads one row
  of each row operand, so what point t writes back is block t of the layer of the WHOLE arrays; the blocks tile the
  100000 rows.
-/
import proofs.«152299_j41729902247981_1_alg».proof.Proof.Gen.KernelIdeal.Frame
import proofs.«152299_j41729902247981_1_alg».proof.Proof.Payload

noncomputable section

namespace Cert.Gcn.R2

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move together, one block per point; the
    weight stays at block (0, 0). -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every one of the twenty row blocks is some point's. -/
theorem idx_onto : ∀ q : Fin 20, ∃ t : Fin cfg2.N, win2_3.index t (0 : Fin 2) = q.val :=
  (by decide +kernel : ∀ q : Fin 20, ∃ t : Fin grid2.N, win2_3.index t (0 : Fin 2) = q.val)

/-- What point `t` writes back is block `t` of the layer of the whole arrays. -/
theorem flushed3 (c : Dev nD) (t : Fin cfg2.N) :
    (dat2 V c).flushed 3 t
      = ((cfg2.win 3).blk t).view.read (Elt Ideal) (layer (n := 100000) (d := 64) 0x3F46E010#32 0x3E647FBE#32 (V c main_v61) (V c main_v32_0) (V c main_v63)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz]
  rw [Pay.lay2]
  obtain ⟨e0, e1, e2, e3, e4, e5, e6, e7⟩ := idx_facts t
  funext j
  show layer (n := 5000) (d := 64) 0x3F46E010#32 0x3E647FBE#32 (iblk2 V c 0 t) (iblk2 V c 1 t) (iblk2 V c 2 t) j
    = layer (n := 100000) (d := 64) 0x3F46E010#32 0x3E647FBE#32 (V c main_v61) (V c main_v32_0) (V c main_v63) (((cfg2.win 3).blk t).view.emb j)
  refine layer_congr 0x3F46E010#32 0x3E647FBE#32 _ _ _ _ _ _ j _ (fun k => ?_) (fun k => ?_) (fun k => ?_) ?_
  · show V c main_v61 (((cfg2.win 0).blk t).view.emb (ix2 (j 0) k)) = V c main_v61 (ix2 ((((cfg2.win 3).blk t).view.emb j) 0) k)
    refine congrArg (V c main_v61) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * k.val = k.val; omega
  · show V c main_v32_0 (((cfg2.win 1).blk t).view.emb (ix2 (j 0) k)) = V c main_v32_0 (ix2 ((((cfg2.win 3).blk t).view.emb j) 0) k)
    refine congrArg (V c main_v32_0) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * k.val = k.val; omega
  · show V c main_v63 (((cfg2.win 2).blk t).view.emb (ix2 k (j 1))) = V c main_v63 (ix2 k ((((cfg2.win 3).blk t).view.emb j) 1))
    refine congrArg (V c main_v63) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  · show (j 1).val = win2_3.index t (1 : Fin 2) * 64 + 1 * (j 1).val
    omega

/-- An index of the array is in point `t`'s block iff each coordinate is in the block's range. -/
theorem mem_blk3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v64).slice (win2_3.rect t)).set ↔ _
  rw [View.set_slice_whole, Rect.mem_set_unit]
  exact Iff.rfl

/-- Row r lies in the block of the point whose block index is r / 5000. -/
theorem cover3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 5000, by omega⟩
  have ht' : win2_3.index t (0 : Fin 2) = (i 0).val / 5000 := ht
  obtain ⟨e0, e1, e2, e3, e4, e5, e6, e7⟩ := idx_facts t
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region the output array holds the layer of the arrays the region found. -/
theorem final3 (c : Dev nD) :
    (dat2 V c).arrAt 3 cfg2.N = layer (n := 100000) (d := 64) 0x3F46E010#32 0x3E647FBE#32 (V c main_v61) (V c main_v32_0) (V c main_v63) :=
  (dat2 V c).arrAt_eq_of_cover 3 _ (fun t _ => flushed3 V c t) cover3

end Cert.Gcn.R2

end
-- ==== Proof.Region3.lean ====
/-
  Propagation layer 3, from blocks to the array.

  Point t of the twenty loads rows [5000 t, 5000 t + 5000) of the aggregated features and of the initial residual and the
  whole layer weight, and writes back the same rows of the layer's output. An entry of a propagation layer reads one row
  of each row operand, so what point t writes back is block t of the layer of the WHOLE arrays; the blocks tile the
  100000 rows.
-/
import proofs.«152299_j41729902247981_1_alg».proof.Proof.Gen.KernelIdeal.Frame
import proofs.«152299_j41729902247981_1_alg».proof.Proof.Payload

noncomputable section

namespace Cert.Gcn.R3

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move together, one block per point; the
    weight stays at block (0, 0). -/
theorem idx_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every one of the twenty row blocks is some point's. -/
theorem idx_onto : ∀ q : Fin 20, ∃ t : Fin cfg3.N, win3_3.index t (0 : Fin 2) = q.val :=
  (by decide +kernel : ∀ q : Fin 20, ∃ t : Fin grid3.N, win3_3.index t (0 : Fin 2) = q.val)

/-- What point `t` writes back is block `t` of the layer of the whole arrays. -/
theorem flushed3 (c : Dev nD) (t : Fin cfg3.N) :
    (dat3 V c).flushed 3 t
      = ((cfg3.win 3).blk t).view.read (Elt Ideal) (layer (n := 100000) (d := 64) 0x3F588995#32 0x3E1DD9AD#32 (V c main_v77) (V c main_v32_0) (V c main_v79)) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz]
  rw [Pay.lay3]
  obtain ⟨e0, e1, e2, e3, e4, e5, e6, e7⟩ := idx_facts t
  funext j
  show layer (n := 5000) (d := 64) 0x3F588995#32 0x3E1DD9AD#32 (iblk3 V c 0 t) (iblk3 V c 1 t) (iblk3 V c 2 t) j
    = layer (n := 100000) (d := 64) 0x3F588995#32 0x3E1DD9AD#32 (V c main_v77) (V c main_v32_0) (V c main_v79) (((cfg3.win 3).blk t).view.emb j)
  refine layer_congr 0x3F588995#32 0x3E1DD9AD#32 _ _ _ _ _ _ j _ (fun k => ?_) (fun k => ?_) (fun k => ?_) ?_
  · show V c main_v77 (((cfg3.win 0).blk t).view.emb (ix2 (j 0) k)) = V c main_v77 (ix2 ((((cfg3.win 3).blk t).view.emb j) 0) k)
    refine congrArg (V c main_v77) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  · show V c main_v32_0 (((cfg3.win 1).blk t).view.emb (ix2 (j 0) k)) = V c main_v32_0 (ix2 ((((cfg3.win 3).blk t).view.emb j) 0) k)
    refine congrArg (V c main_v32_0) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * k.val = k.val; omega
  · show V c main_v79 (((cfg3.win 2).blk t).view.emb (ix2 k (j 1))) = V c main_v79 (ix2 k ((((cfg3.win 3).blk t).view.emb j) 1))
    refine congrArg (V c main_v79) (funext fun a => Fin.ext ?_)
    match a with
    | ⟨0, _⟩ => show win3_2.index t (0 : Fin 2) * 64 + 1 * k.val = k.val; omega
    | ⟨1, _⟩ => show win3_2.index t (1 : Fin 2) * 64 + 1 * (j 1).val = win3_3.index t (1 : Fin 2) * 64 + 1 * (j 1).val; omega
  · show (j 1).val = win3_3.index t (1 : Fin 2) * 64 + 1 * (j 1).val
    omega

/-- An index of the array is in point `t`'s block iff each coordinate is in the block's range. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v80).slice (win3_3.rect t)).set ↔ _
  rw [View.set_slice_whole, Rect.mem_set_unit]
  exact Iff.rfl

/-- Row r lies in the block of the point whose block index is r / 5000. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 5000, by omega⟩
  have ht' : win3_3.index t (0 : Fin 2) = (i 0).val / 5000 := ht
  obtain ⟨e0, e1, e2, e3, e4, e5, e6, e7⟩ := idx_facts t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region the output array holds the layer of the arrays the region found. -/
theorem final3 (c : Dev nD) :
    (dat3 V c).arrAt 3 cfg3.N = layer (n := 100000) (d := 64) 0x3F588995#32 0x3E1DD9AD#32 (V c main_v77) (V c main_v32_0) (V c main_v79) :=
  (dat3 V c).arrAt_eq_of_cover 3 _ (fun t _ => flushed3 V c t) cover3

end Cert.Gcn.R3

end
-- ==== Proof.Region4.lean ====
/-
  Propagation layer 4, from blocks to the array.

  Point t of the twenty loads rows [5000 t, 5000 t + 5000) of the aggregated features and of the initial residual and the
  whole layer weight, and writes back the same rows of the layer's output. An entry of a propagation layer reads one row
  of each row operand, so what point t writes back is block t of the layer of the WHOLE arrays; the blocks tile the
  100000 rows.
-/
import proofs.«152299_j41729902247981_1_alg».proof.Proof.Gen.KernelIdeal.Frame
import proofs.«152299_j41729902247981_1_alg».proof.Proof.Payload

noncomputable section

namespace Cert.Gcn.R4

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move together, one block per point; the
    weight stays at block (0, 0). -/
theorem idx_facts : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every one of the twenty row blocks is some point's. -/
theorem idx_onto : ∀ q : Fin 20, ∃ t : Fin cfg4.N, win4_3.index t (0 : Fin 2) = q.val :=
  (by decide +kernel : ∀ q : Fin 20, ∃ t : Fin grid4.N, win4_3.index t (0 : Fin 2) = q.val)

/-- What point `t` writes back is block `t` of the layer of the whole arrays. -/
theorem flushed3 (c : Dev nD) (t : Fin cfg4.N) :
    (dat4 V c).flushed 3 t
      = ((cfg4.win 3).blk t).view.read (Elt Ideal) (layer (n := 100000) (d := 64) 0x3F61D8F9#32 0x3DF1383B#32 (V c main_v93) (V c main_v32_0) (V c main_v95)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz]
  rw [Pay.lay4]
  obtain ⟨e0, e1, e2, e3, e4, e5, e6, e7⟩ := idx_facts t
  funext j
  show layer (n := 5000) (d := 64) 0x3F61D8F9#32 0x3DF1383B#32 (iblk4 V c 0 t) (iblk4 V c 1 t) (iblk4 V c 2 t) j
    = layer (n := 100000) (d := 64) 0x3F61D8F9#32 0x3DF1383B#32 (V c main_v93) (V c main_v32_0) (V c main_v95) (((cfg4.win 3).blk t).view.emb j)
  refine layer_congr 0x3F61D8F9#32 0x3DF1383B#32 _ _ _ _ _ _ j _ (fun k => ?_) (fun k => ?_) (fun k => ?_) ?_
  · show V c main_v93 (((cfg4.win 0).blk t).view.emb (ix2 (j 0) k)) = V c main_v93 (ix2 ((((cfg4.win 3).blk t).view.emb j) 0) k)
    refine congrArg (V c main_v93) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * k.val = k.val; omega
  · show V c main_v32_0 (((cfg4.win 1).blk t).view.emb (ix2 (j 0) k)) = V c main_v32_0 (ix2 ((((cfg4.win 3).blk t).view.emb j) 0) k)
    refine congrArg (V c main_v32_0) (funext fun a => Fin.ext ?_)
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 64 + 1 * k.val = k.val; omega
  · show V c main_v95 (((cfg4.win 2).blk t).view.emb (ix2 k (j 1))) = V c main_v95 (ix2 k ((((cfg4.win 3).blk t).view.emb j) 1))
    refine congrArg (V c main_v95) (funext fun a => Fin.ext ?_)
    match a with
    | ⟨0, _⟩ => show win4_2.index t (0 : Fin 2) * 64 + 1 * k.val = k.val; omega
    | ⟨1, _⟩ => show win4_2.index t (1 : Fin 2) * 64 + 1 * (j 1).val = win4_3.index t (1 : Fin 2) * 64 + 1 * (j 1).val; omega
  · show (j 1).val = win4_3.index t (1 : Fin 2) * 64 + 1 * (j 1).val
    omega

/-- An index of the array is in point `t`'s block iff each coordinate is in the block's range. -/
theorem mem_blk3 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v96).slice (win4_3.rect t)).set ↔ _
  rw [View.set_slice_whole, Rect.mem_set_unit]
  exact Iff.rfl

/-- Row r lies in the block of the point whose block index is r / 5000. -/
theorem cover3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := idx_onto ⟨(i 0).val / 5000, by omega⟩
  have ht' : win4_3.index t (0 : Fin 2) = (i 0).val / 5000 := ht
  obtain ⟨e0, e1, e2, e3, e4, e5, e6, e7⟩ := idx_facts t
  refine ⟨t, flush4_3 t, ?_⟩
  rw [mem_blk3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region the output array holds the layer of the arrays the region found. -/
theorem final3 (c : Dev nD) :
    (dat4 V c).arrAt 3 cfg4.N = layer (n := 100000) (d := 64) 0x3F61D8F9#32 0x3DF1383B#32 (V c main_v93) (V c main_v32_0) (V c main_v95) :=
  (dat4 V c).arrAt_eq_of_cover 3 _ (fun t _ => flushed3 V c t) cover3

end Cert.Gcn.R4

end
-- ==== Proof.Region5.lean ====
/-
  The last dense stage, from blocks to the array.

  Point t of the twenty loads rows [5000 t, 5000 t + 5000) of the last layer's output, the whole transposed weight and the
  whole bias row, and writes back the same rows of the result: the dense map of what it loaded. An entry of a dense map
  reads one row of the row operand, so what point t writes back is block t of the dense map of the WHOLE arrays; the blocks
  tile the 100000 rows.
-/
import proofs.«152299_j41729902247981_1_alg».proof.Proof.Gen.KernelIdeal.Frame
import proofs.«152299_j41729902247981_1_alg».proof.Proof.Payload

noncomputable section

namespace Cert.Gcn.R5

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row window and the output move together, one block per point; the weight and
    the bias stay at block (0, 0). -/
theorem idx_facts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 19 :=
  (by decide +kernel : ∀ t : Fin grid5.N, _)

/-- Every one of the twenty row blocks is some point's. -/
theorem idx_onto : ∀ q : Fin 20, ∃ t : Fin cfg5.N, win5_3.index t (0 : Fin 2) = q.val :=
  (by decide +kernel : ∀ q : Fin 20, ∃ t : Fin grid5.N, win5_3.index t (0 : Fin 2) = q.val)

/-- What point `t` writes back is block `t` of the dense map of the whole arrays. -/
theorem flushed3 (c : Dev nD) (t : Fin cfg5.N) :
    (dat5 V c).flushed 3 t
      = ((cfg5.win 3).blk t).view.read (Elt Ideal) (affine (n := 100000) (K := 64) (d := 64) (V c main_v96) (V c main_v97) (V c main_v98)) := by
  show (cfg5.win 3).cut (grid5.coords t) ((dat5 V c).after 3 t) = _
  rw [after5_3]
  unfold out5_3
  rw [View.canon_unit_zero hz]
  simp only [View.ld_unit_zero (S := S5000x64) hz, View.ld_unit_zero (S := S64x64) hz, View.ld_unit_zero (S := S1x64) hz]
  rw [Pay.out5]
  obtain ⟨e0, e1, e2, e3, e4, e5, e6, e7⟩ := idx_facts t
  funext j
  show affine (n := 5000) (K := 64) (d := 64) (iblk5 V c 0 t) (iblk5 V c 1 t) (iblk5 V c 2 t) j
    = affine (n := 100000) (K := 64) (d := 64) (V c main_v96) (V c main_v97) (V c main_v98) (((cfg5.win 3).blk t).view.emb j)
  refine affine_congr _ _ _ _ _ _ j _ (fun k => ?_) (fun k => ?_) ?_
  · show V c main_v96 (((cfg5.win 0).blk t).view.emb (ix2 (j 0) k)) = V c main_v96 (ix2 ((((cfg5.win 3).blk t).view.emb j) 0) k)
    refine congrArg (V c main_v96) (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * k.val = k.val; omega
  · show V c main_v97 (((cfg5.win 1).blk t).view.emb (ix2 k (j 1))) = V c main_v97 (ix2 k ((((cfg5.win 3).blk t).view.emb j) 1))
    refine congrArg (V c main_v97) (funext fun a => Fin.ext ?_)
    match a with
    | ⟨0, _⟩ => show win5_1.index t (0 : Fin 2) * 64 + 1 * k.val = k.val; omega
    | ⟨1, _⟩ => show win5_1.index t (1 : Fin 2) * 64 + 1 * (j 1).val = win5_3.index t (1 : Fin 2) * 64 + 1 * (j 1).val; omega
  · show V c main_v98 (((cfg5.win 2).blk t).view.emb (ix2 ⟨0, Nat.one_pos⟩ (j 1))) = V c main_v98 (ix2 ⟨0, Nat.one_pos⟩ ((((cfg5.win 3).blk t).view.emb j) 1))
    refine congrArg (V c main_v98) (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the array is in point `t`'s block iff each coordinate is in the block's range. -/
theorem mem_blk3 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v99).slice (win5_3.rect t)).set ↔ _
  rw [View.set_slice_whole, Rect.mem_set_unit]
  exact Iff.rfl

/-- Row r lies in the block of the point whose block index is r / 5000. -/
theorem cover3 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := idx_onto ⟨(i 0).val / 5000, by omega⟩
  have ht' : win5_3.index t (0 : Fin 2) = (i 0).val / 5000 := ht
  obtain ⟨e0, e1, e2, e3, e4, e5, e6, e7⟩ := idx_facts t
  refine ⟨t, flush5_3 t, ?_⟩
  rw [mem_blk3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After the region the result array holds the dense map of the arrays the region found. -/
theorem final3 (c : Dev nD) :
    (dat5 V c).arrAt 3 cfg5.N = affine (n := 100000) (K := 64) (d := 64) (V c main_v96) (V c main_v97) (V c main_v98) :=
  (dat5 V c).arrAt_eq_of_cover 3 _ (fun t _ => flushed3 V c t) cover3

end Cert.Gcn.R5

end
-- ==== Proof.KChain.lean ====
/-
  The kernel program's buffers, boundary by boundary, in the specification's terms.

  Between two launches the program runs the shared host chain on what the previous launch left: the aggregation of the
  previous layer's output, and the slice of the stacked weights the next layer uses. Each launch leaves the specification's
  function of the arrays it found (the region modules). The edge data (source, target, normalisation), the first dense
  map's pre-activation and the weight arguments are written once and only read afterwards, so they are the same at every
  later boundary. Chaining these facts from the launch memory to the last boundary, the result buffer holds the
  specification's network of the argument arrays.
-/
import proofs.«152299_j41729902247981_1_alg».proof.Proof.Region0
import proofs.«152299_j41729902247981_1_alg».proof.Proof.Region1
import proofs.«152299_j41729902247981_1_alg».proof.Proof.Region2
import proofs.«152299_j41729902247981_1_alg».proof.Proof.Region3
import proofs.«152299_j41729902247981_1_alg».proof.Proof.Region4
import proofs.«152299_j41729902247981_1_alg».proof.Proof.Region5
import proofs.«152299_j41729902247981_1_alg».proof.Proof.Chain

noncomputable section

namespace Cert.Gcn.K

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-! ## The values, named -/

/-- The edges' normalisation, source and target, of the edge argument. -/
def nrm : FVec Ideal Cert.ReferenceIdeal.S1700000 .f32 := normOf (F := Ideal) (m ((c : Thread nD τ).loc main_arg1))
def row : IVec Cert.ReferenceIdeal.S1700000 32 := rowOf (m ((c : Thread nD τ).loc main_arg1))
def col : IVec Cert.ReferenceIdeal.S1700000 32 := colOf (m ((c : Thread nD τ).loc main_arg1))

/-- The first dense map's pre-activation and the features after each stage. -/
def x0p : Mat 100000 64 := affine (n := 100000) (K := 128) (d := 64) (m ((c : Thread nD τ).loc main_arg0)) (wT0Of (F := Ideal) (m ((c : Thread nD τ).loc main_arg2))) (rowVec (m ((c : Thread nD τ).loc main_arg3)))
def feat0 : Mat 100000 64 := relu (x0p m c)
def feat1 : Mat 100000 64 := layer 0x3F183370#32 0x3ECF991F#32 (aggOf (F := Ideal) (nrm m c) (row m c) (col m c) (feat0 m c)) (x0p m c) (w0Of (F := Ideal) (m ((c : Thread nD τ).loc main_arg4)))
def feat2 : Mat 100000 64 := layer 0x3F46E010#32 0x3E647FBE#32 (aggOf (F := Ideal) (nrm m c) (row m c) (col m c) (feat1 m c)) (x0p m c) (w1Of (F := Ideal) (m ((c : Thread nD τ).loc main_arg4)))
def feat3 : Mat 100000 64 := layer 0x3F588995#32 0x3E1DD9AD#32 (aggOf (F := Ideal) (nrm m c) (row m c) (col m c) (feat2 m c)) (x0p m c) (w2Of (F := Ideal) (m ((c : Thread nD τ).loc main_arg4)))
def feat4 : Mat 100000 64 := layer 0x3F61D8F9#32 0x3DF1383B#32 (aggOf (F := Ideal) (nrm m c) (row m c) (col m c) (feat3 m c)) (x0p m c) (w3Of (F := Ideal) (m ((c : Thread nD τ).loc main_arg4)))

/-- The dense map reads its bias row at (0, j) only: the bias vector viewed as a row and the row the specification names
    give the same map. -/
theorem affine_cast_row {n K d : ℕ} (x : Mat n K) (w : Mat K d) (b : (⟨1, ![d]⟩ : Shape).Idx → EReal)
    (h1 : (⟨1, ![d]⟩ : Shape).ShapeCasts ⟨2, ![1, d]⟩) :
    affine x w (shapeCast ⟨2, ![1, d]⟩ b h1) = affine x w (rowVec b) := by
  funext i
  unfold affine
  exact congrArg (LibDense.prod x w i + ·) (cast_row b h1 (i 1))

/-! ## The aggregation with the kernel program's own records -/

/-- A vector of row numbers as a gather's index column, as the kernel program's host operations spell it. -/
def wrapK (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The aggregation as the kernel program's host operations spell it. -/
def aggK (nrm : FVec Ideal S1700000 .f32) (row col : IVec S1700000 32) (h : FVec Ideal S100000x64 .f32) : FVec Ideal S100000x64 .f32 :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 col)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrapK row)))

/-- The two programs' records name the same dimensions: the aggregation is one function. -/
theorem aggK_eq (nrm : FVec Ideal S1700000 .f32) (row col : IVec S1700000 32) (h : FVec Ideal S100000x64 .f32) :
    aggK nrm row col h = aggOf (F := Ideal) nrm row col h := rfl

/-! ## The edge normalisation with the kernel program's own records -/

def degK (col : IVec S1700000 32) : FVec Ideal S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 col) (broadcastInDim S1700000 ![] bcast_S_S1700000 (constant S_ .f32 0x3F800000#32))

def dinvK (col : IVec S1700000 32) : FVec Ideal S100000 .f32 :=
  select (cmpf (F := Ideal) .ogt (degK col) (broadcastInDim S100000 ![] bcast_S_S100000 (constant S_ .f32 0x00000000#32)))
    (Host.rsqrt (degK col)) (broadcastInDim S100000 ![] bcast_S_S100000 (id (constant S_ .f32 0x00000000#32)))

def normK (row col : IVec S1700000 32) : FVec Ideal S1700000 .f32 :=
  mulf (Host.gather gather_S100000_S1700000x1_S1700000_n_0_n_n_0_1_1 (dinvK col) (wrapK row))
    (Host.gather gather_S100000_S1700000x1_S1700000_n_0_n_n_0_1_1 (dinvK col) (wrapK col))

/-- The two programs' records name the same dimensions: the normalisation is one function of the edge rows. -/
theorem normK_eq (row col : IVec S1700000 32) : normK row col = normRC (F := Ideal) row col := rfl

/-! ## Before the first launch, stretch by stretch

The host operations before the first launch come in three stretches: the edge list's two rows and the degree (the first
seven operations build the rows; the rest count the degree, compare it with zero and take its inverse root), the
selection between the inverse root and zero, and the two gathers at an edge's ends with their product, beside the first
dense map's transposed weight and bias row. Each stretch is read from an arbitrary state of the buffers: an operation's
result at its own buffer is its function of the operands' contents, and every other buffer holds what it held. -/

theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons a l ih => simp only [List.cons_append, StableHlo.after_cons]; exact ih _

section Stretches
variable (U : Valuation τ sig (Elt Ideal))

theorem A_v12 : StableHlo.after ((hostOps0 (F := Ideal)).drop 7) U (Proc.devRef .tc main_v12)
    = cmpf (F := Ideal) .ogt (degK (U (Proc.devRef .tc main_v6))) (broadcastInDim S100000 ![] bcast_S_S100000 (constant S_ .f32 0x00000000#32)) := by
  unfold hostOps0
  simp only [List.drop_succ_cons, List.drop_zero]
  after_results_simp
  all_goals rfl
theorem A_v13 : StableHlo.after ((hostOps0 (F := Ideal)).drop 7) U (Proc.devRef .tc main_v13) = Host.rsqrt (degK (U (Proc.devRef .tc main_v6))) := by
  unfold hostOps0
  simp only [List.drop_succ_cons, List.drop_zero]
  after_results_simp
  all_goals rfl
theorem A_cst2 : StableHlo.after ((hostOps0 (F := Ideal)).drop 7) U (Proc.devRef .tc main_cst_2) = constant (F := Ideal) S_ .f32 0x00000000#32 := by
  unfold hostOps0
  simp only [List.drop_succ_cons, List.drop_zero]
  after_results_simp
  all_goals rfl
theorem A_main_v3 : StableHlo.after ((hostOps0 (F := Ideal)).drop 7) U (Proc.devRef .tc main_v3) = U (Proc.devRef .tc main_v3) := by
  unfold hostOps0
  simp only [List.drop_succ_cons, List.drop_zero]
  after_results
  all_goals rfl
theorem A_main_v6 : StableHlo.after ((hostOps0 (F := Ideal)).drop 7) U (Proc.devRef .tc main_v6) = U (Proc.devRef .tc main_v6) := by
  unfold hostOps0
  simp only [List.drop_succ_cons, List.drop_zero]
  after_results
  all_goals rfl
theorem A_main_arg0 : StableHlo.after ((hostOps0 (F := Ideal)).drop 7) U (Proc.devRef .tc main_arg0) = U (Proc.devRef .tc main_arg0) := by
  unfold hostOps0
  simp only [List.drop_succ_cons, List.drop_zero]
  after_results
  all_goals rfl
theorem A_main_arg2 : StableHlo.after ((hostOps0 (F := Ideal)).drop 7) U (Proc.devRef .tc main_arg2) = U (Proc.devRef .tc main_arg2) := by
  unfold hostOps0
  simp only [List.drop_succ_cons, List.drop_zero]
  after_results
  all_goals rfl
theorem A_main_arg3 : StableHlo.after ((hostOps0 (F := Ideal)).drop 7) U (Proc.devRef .tc main_arg3) = U (Proc.devRef .tc main_arg3) := by
  unfold hostOps0
  simp only [List.drop_succ_cons, List.drop_zero]
  after_results
  all_goals rfl
theorem A_main_arg4 : StableHlo.after ((hostOps0 (F := Ideal)).drop 7) U (Proc.devRef .tc main_arg4) = U (Proc.devRef .tc main_arg4) := by
  unfold hostOps0
  simp only [List.drop_succ_cons, List.drop_zero]
  after_results
  all_goals rfl
theorem A_main_arg5 : StableHlo.after ((hostOps0 (F := Ideal)).drop 7) U (Proc.devRef .tc main_arg5) = U (Proc.devRef .tc main_arg5) := by
  unfold hostOps0
  simp only [List.drop_succ_cons, List.drop_zero]
  after_results
  all_goals rfl
theorem A_main_arg6 : StableHlo.after ((hostOps0 (F := Ideal)).drop 7) U (Proc.devRef .tc main_arg6) = U (Proc.devRef .tc main_arg6) := by
  unfold hostOps0
  simp only [List.drop_succ_cons, List.drop_zero]
  after_results
  all_goals rfl

theorem B_v14 : StableHlo.after (hostOps0_1 (F := Ideal)) U (Proc.devRef .tc main_v14)
    = select (U (Proc.devRef .tc main_v12) : IVec S100000 1) (U (Proc.devRef .tc main_v13) : FVec Ideal S100000 .f32)
        (broadcastInDim S100000 ![] bcast_S_S100000 (id (U (Proc.devRef .tc main_cst_2) : FVec Ideal S_ .f32))) := by
  unfold hostOps0_1
  after_results_simp
  all_goals rfl
theorem B_main_v3 : StableHlo.after (hostOps0_1 (F := Ideal)) U (Proc.devRef .tc main_v3) = U (Proc.devRef .tc main_v3) := by
  unfold hostOps0_1
  after_results
  all_goals rfl
theorem B_main_v6 : StableHlo.after (hostOps0_1 (F := Ideal)) U (Proc.devRef .tc main_v6) = U (Proc.devRef .tc main_v6) := by
  unfold hostOps0_1
  after_results
  all_goals rfl
theorem B_main_arg0 : StableHlo.after (hostOps0_1 (F := Ideal)) U (Proc.devRef .tc main_arg0) = U (Proc.devRef .tc main_arg0) := by
  unfold hostOps0_1
  after_results
  all_goals rfl
theorem B_main_arg2 : StableHlo.after (hostOps0_1 (F := Ideal)) U (Proc.devRef .tc main_arg2) = U (Proc.devRef .tc main_arg2) := by
  unfold hostOps0_1
  after_results
  all_goals rfl
theorem B_main_arg3 : StableHlo.after (hostOps0_1 (F := Ideal)) U (Proc.devRef .tc main_arg3) = U (Proc.devRef .tc main_arg3) := by
  unfold hostOps0_1
  after_results
  all_goals rfl
theorem B_main_arg4 : StableHlo.after (hostOps0_1 (F := Ideal)) U (Proc.devRef .tc main_arg4) = U (Proc.devRef .tc main_arg4) := by
  unfold hostOps0_1
  after_results
  all_goals rfl
theorem B_main_arg5 : StableHlo.after (hostOps0_1 (F := Ideal)) U (Proc.devRef .tc main_arg5) = U (Proc.devRef .tc main_arg5) := by
  unfold hostOps0_1
  after_results
  all_goals rfl
theorem B_main_arg6 : StableHlo.after (hostOps0_1 (F := Ideal)) U (Proc.devRef .tc main_arg6) = U (Proc.devRef .tc main_arg6) := by
  unfold hostOps0_1
  after_results
  all_goals rfl

theorem C_v29 : StableHlo.after (hostOps0_2 (F := Ideal)) U (Proc.devRef .tc main_v29)
    = (mulf (Host.gather gather_S100000_S1700000x1_S1700000_n_0_n_n_0_1_1 (U (Proc.devRef .tc main_v14) : FVec Ideal S100000 .f32) (wrapK (U (Proc.devRef .tc main_v3))))
        (Host.gather gather_S100000_S1700000x1_S1700000_n_0_n_n_0_1_1 (U (Proc.devRef .tc main_v14) : FVec Ideal S100000 .f32) (wrapK (U (Proc.devRef .tc main_v6)))) : FVec Ideal S1700000 .f32) := by
  unfold hostOps0_2
  after_results_simp
  all_goals rfl
theorem C_v30 : StableHlo.after (hostOps0_2 (F := Ideal)) U (Proc.devRef .tc main_v30) = transpose S128x64 [1, 0] (U (Proc.devRef .tc main_arg2) : FVec Ideal S64x128 .f32) transposes_S64x128_S128x64_1_0 := by
  unfold hostOps0_2
  after_results_simp
  all_goals rfl
theorem C_v31 : StableHlo.after (hostOps0_2 (F := Ideal)) U (Proc.devRef .tc main_v31) = shapeCast S1x64 (U (Proc.devRef .tc main_arg3) : FVec Ideal S64 .f32) shapeCasts_S64_S1x64 := by
  unfold hostOps0_2
  after_results_simp
  all_goals rfl
theorem C_main_v3 : StableHlo.after (hostOps0_2 (F := Ideal)) U (Proc.devRef .tc main_v3) = U (Proc.devRef .tc main_v3) := by
  unfold hostOps0_2
  after_results
  all_goals rfl
theorem C_main_v6 : StableHlo.after (hostOps0_2 (F := Ideal)) U (Proc.devRef .tc main_v6) = U (Proc.devRef .tc main_v6) := by
  unfold hostOps0_2
  after_results
  all_goals rfl
theorem C_main_arg0 : StableHlo.after (hostOps0_2 (F := Ideal)) U (Proc.devRef .tc main_arg0) = U (Proc.devRef .tc main_arg0) := by
  unfold hostOps0_2
  after_results
  all_goals rfl
theorem C_main_arg4 : StableHlo.after (hostOps0_2 (F := Ideal)) U (Proc.devRef .tc main_arg4) = U (Proc.devRef .tc main_arg4) := by
  unfold hostOps0_2
  after_results
  all_goals rfl
theorem C_main_arg5 : StableHlo.after (hostOps0_2 (F := Ideal)) U (Proc.devRef .tc main_arg5) = U (Proc.devRef .tc main_arg5) := by
  unfold hostOps0_2
  after_results
  all_goals rfl
theorem C_main_arg6 : StableHlo.after (hostOps0_2 (F := Ideal)) U (Proc.devRef .tc main_arg6) = U (Proc.devRef .tc main_arg6) := by
  unfold hostOps0_2
  after_results
  all_goals rfl

end Stretches

/-- The buffers after the first seven host operations: the edge list's two rows with the self loops appended. -/
def U0 : Valuation τ sig (Elt Ideal) := StableHlo.after ((hostOps0 (F := Ideal)).take 7) (W0 m ρ c)

/-- The contents at the first launch's entry, read from there. -/
theorem W3_eq : W3 m ρ c = StableHlo.after hostOps0_2 (StableHlo.after hostOps0_1 (StableHlo.after ((hostOps0 (F := Ideal)).drop 7) (U0 m ρ c))) := by
  unfold U0
  rw [← after_append ((hostOps0 (F := Ideal)).take 7) ((hostOps0 (F := Ideal)).drop 7) (W0 m ρ c), List.take_append_drop]

theorem u0_main_v3 : U0 m ρ c (Proc.devRef .tc main_v3) = row m c := by
  unfold U0 hostOps0
  simp only [List.take_succ_cons, List.take_zero]
  after_results
  all_goals rfl
theorem u0_main_v6 : U0 m ρ c (Proc.devRef .tc main_v6) = col m c := by
  unfold U0 hostOps0
  simp only [List.take_succ_cons, List.take_zero]
  after_results
  all_goals rfl
theorem u0_main_arg0 : U0 m ρ c (Proc.devRef .tc main_arg0) = (m ((c : Thread nD τ).loc main_arg0)) := by
  unfold U0 hostOps0
  simp only [List.take_succ_cons, List.take_zero]
  after_results
  all_goals rfl
theorem u0_main_arg2 : U0 m ρ c (Proc.devRef .tc main_arg2) = (m ((c : Thread nD τ).loc main_arg2)) := by
  unfold U0 hostOps0
  simp only [List.take_succ_cons, List.take_zero]
  after_results
  all_goals rfl
theorem u0_main_arg3 : U0 m ρ c (Proc.devRef .tc main_arg3) = (m ((c : Thread nD τ).loc main_arg3)) := by
  unfold U0 hostOps0
  simp only [List.take_succ_cons, List.take_zero]
  after_results
  all_goals rfl
theorem u0_main_arg4 : U0 m ρ c (Proc.devRef .tc main_arg4) = (m ((c : Thread nD τ).loc main_arg4)) := by
  unfold U0 hostOps0
  simp only [List.take_succ_cons, List.take_zero]
  after_results
  all_goals rfl
theorem u0_main_arg5 : U0 m ρ c (Proc.devRef .tc main_arg5) = (m ((c : Thread nD τ).loc main_arg5)) := by
  unfold U0 hostOps0
  simp only [List.take_succ_cons, List.take_zero]
  after_results
  all_goals rfl
theorem u0_main_arg6 : U0 m ρ c (Proc.devRef .tc main_arg6) = (m ((c : Thread nD τ).loc main_arg6)) := by
  unfold U0 hostOps0
  simp only [List.take_succ_cons, List.take_zero]
  after_results
  all_goals rfl

/-! ## What the buffers hold when the first launch is entered -/

theorem w3_arg0 : W3 m ρ c (Proc.devRef .tc main_arg0) = (m ((c : Thread nD τ).loc main_arg0)) := by
  rw [W3_eq, C_main_arg0, B_main_arg0, A_main_arg0, u0_main_arg0]
theorem w3_arg4 : W3 m ρ c (Proc.devRef .tc main_arg4) = (m ((c : Thread nD τ).loc main_arg4)) := by
  rw [W3_eq, C_main_arg4, B_main_arg4, A_main_arg4, u0_main_arg4]
theorem w3_arg5 : W3 m ρ c (Proc.devRef .tc main_arg5) = (m ((c : Thread nD τ).loc main_arg5)) := by
  rw [W3_eq, C_main_arg5, B_main_arg5, A_main_arg5, u0_main_arg5]
theorem w3_arg6 : W3 m ρ c (Proc.devRef .tc main_arg6) = (m ((c : Thread nD τ).loc main_arg6)) := by
  rw [W3_eq, C_main_arg6, B_main_arg6, A_main_arg6, u0_main_arg6]
theorem w3_v3 : W3 m ρ c (Proc.devRef .tc main_v3) = row m c := by
  rw [W3_eq, C_main_v3, B_main_v3, A_main_v3, u0_main_v3]
theorem w3_v6 : W3 m ρ c (Proc.devRef .tc main_v6) = col m c := by
  rw [W3_eq, C_main_v6, B_main_v6, A_main_v6, u0_main_v6]
theorem w3_v30 : W3 m ρ c (Proc.devRef .tc main_v30) = wT0Of (F := Ideal) (m ((c : Thread nD τ).loc main_arg2)) := by
  rw [W3_eq, C_v30, B_main_arg2, A_main_arg2, u0_main_arg2]
  rfl
theorem w3_v31 : W3 m ρ c (Proc.devRef .tc main_v31) = shapeCast S1x64 (m ((c : Thread nD τ).loc main_arg3)) shapeCasts_S64_S1x64 := by
  rw [W3_eq, C_v31, B_main_arg3, A_main_arg3, u0_main_arg3]
/-- The edges' normalisation: the gathers' product of the selected inverse root degrees. -/
theorem w3_v29 : W3 m ρ c (Proc.devRef .tc main_v29) = nrm m c := by
  rw [W3_eq, C_v29, B_v14, B_main_v3, B_main_v6, A_v12, A_v13, A_cst2, A_main_v3, A_main_v6, u0_main_v3, u0_main_v6]
  exact normK_eq (row m c) (col m c)

/-! ## The first launch -/

theorem w4_x0p : W4 m ρ c (Proc.devRef .tc main_v32_0) = x0p m c := by
  refine (W4_arr m ρ c 3).trans ((R0.final3 (V3 m ρ) c).trans ?_)
  show affine (n := 100000) (K := 128) (d := 64) (W3 m ρ c (Proc.devRef .tc main_arg0)) (W3 m ρ c (Proc.devRef .tc main_v30)) (W3 m ρ c (Proc.devRef .tc main_v31)) = _
  rw [w3_arg0, w3_v30, w3_v31]
  exact affine_cast_row _ _ _ _

theorem w4_h0 : W4 m ρ c (Proc.devRef .tc main_v32_1) = feat0 m c := by
  refine (W4_arr m ρ c 4).trans ((R0.final4 (V3 m ρ) c).trans ?_)
  show relu (affine (n := 100000) (K := 128) (d := 64) (W3 m ρ c (Proc.devRef .tc main_arg0)) (W3 m ρ c (Proc.devRef .tc main_v30)) (W3 m ρ c (Proc.devRef .tc main_v31))) = _
  rw [w3_arg0, w3_v30, w3_v31, affine_cast_row]
  rfl

/-! ## What is written once and only read afterwards -/

/-- The edge data, the pre-activation and the weight arguments, at a boundary's contents. -/
def Kept (W : Valuation τ sig (Elt Ideal)) : Prop :=
  W (Proc.devRef .tc main_v29) = nrm m c ∧ W (Proc.devRef .tc main_v3) = row m c ∧ W (Proc.devRef .tc main_v6) = col m c
    ∧ W (Proc.devRef .tc main_v32_0) = x0p m c ∧ W (Proc.devRef .tc main_arg4) = (m ((c : Thread nD τ).loc main_arg4))
    ∧ W (Proc.devRef .tc main_arg5) = (m ((c : Thread nD τ).loc main_arg5)) ∧ W (Proc.devRef .tc main_arg6) = (m ((c : Thread nD τ).loc main_arg6))

theorem kept4 : Kept m c (W4 m ρ c) :=
  ⟨(W4_of_ne m ρ c main_v29 (by decide)).trans (w3_v29 m ρ c), (W4_of_ne m ρ c main_v3 (by decide)).trans (w3_v3 m ρ c),
   (W4_of_ne m ρ c main_v6 (by decide)).trans (w3_v6 m ρ c), w4_x0p m ρ c,
   (W4_of_ne m ρ c main_arg4 (by decide)).trans (w3_arg4 m ρ c), (W4_of_ne m ρ c main_arg5 (by decide)).trans (w3_arg5 m ρ c),
   (W4_of_ne m ρ c main_arg6 (by decide)).trans (w3_arg6 m ρ c)⟩

theorem kept5 (h : Kept m c (W4 m ρ c)) : Kept m c (W5 m ρ c) := by
  obtain ⟨h1, h2, h3, h4, h5, h6, h7⟩ := h
  refine ⟨?_, ?_, ?_, ?_, ?_, ?_, ?_⟩
  · show StableHlo.after hostOps1 (W4 m ρ c) (Proc.devRef .tc main_v29) = _
    unfold hostOps1
    after_results
    exact h1
  · show StableHlo.after hostOps1 (W4 m ρ c) (Proc.devRef .tc main_v3) = _
    unfold hostOps1
    after_results
    exact h2
  · show StableHlo.after hostOps1 (W4 m ρ c) (Proc.devRef .tc main_v6) = _
    unfold hostOps1
    after_results
    exact h3
  · show StableHlo.after hostOps1 (W4 m ρ c) (Proc.devRef .tc main_v32_0) = _
    unfold hostOps1
    after_results
    exact h4
  · show StableHlo.after hostOps1 (W4 m ρ c) (Proc.devRef .tc main_arg4) = _
    unfold hostOps1
    after_results
    exact h5
  · show StableHlo.after hostOps1 (W4 m ρ c) (Proc.devRef .tc main_arg5) = _
    unfold hostOps1
    after_results
    exact h6
  · show StableHlo.after hostOps1 (W4 m ρ c) (Proc.devRef .tc main_arg6) = _
    unfold hostOps1
    after_results
    exact h7

theorem kept6 (h : Kept m c (W5 m ρ c)) : Kept m c (W6 m ρ c) := by
  obtain ⟨h1, h2, h3, h4, h5, h6, h7⟩ := h
  exact ⟨(W6_of_ne m ρ c main_v29 (by decide)).trans h1, (W6_of_ne m ρ c main_v3 (by decide)).trans h2,
    (W6_of_ne m ρ c main_v6 (by decide)).trans h3, ((W6_arr m ρ c 1).trans (((dat1 (V5 m ρ) c).arrAt_in 1 rfl _).trans (A_eq1 (V5 m ρ) c 1))).trans h4,
    (W6_of_ne m ρ c main_arg4 (by decide)).trans h5, (W6_of_ne m ρ c main_arg5 (by decide)).trans h6,
    (W6_of_ne m ρ c main_arg6 (by decide)).trans h7⟩

theorem kept7 (h : Kept m c (W6 m ρ c)) : Kept m c (W7 m ρ c) := by
  obtain ⟨h1, h2, h3, h4, h5, h6, h7⟩ := h
  refine ⟨?_, ?_, ?_, ?_, ?_, ?_, ?_⟩
  · show StableHlo.after hostOps2 (W6 m ρ c) (Proc.devRef .tc main_v29) = _
    unfold hostOps2
    after_results
    exact h1
  · show StableHlo.after hostOps2 (W6 m ρ c) (Proc.devRef .tc main_v3) = _
    unfold hostOps2
    after_results
    exact h2
  · show StableHlo.after hostOps2 (W6 m ρ c) (Proc.devRef .tc main_v6) = _
    unfold hostOps2
    after_results
    exact h3
  · show StableHlo.after hostOps2 (W6 m ρ c) (Proc.devRef .tc main_v32_0) = _
    unfold hostOps2
    after_results
    exact h4
  · show StableHlo.after hostOps2 (W6 m ρ c) (Proc.devRef .tc main_arg4) = _
    unfold hostOps2
    after_results
    exact h5
  · show StableHlo.after hostOps2 (W6 m ρ c) (Proc.devRef .tc main_arg5) = _
    unfold hostOps2
    after_results
    exact h6
  · show StableHlo.after hostOps2 (W6 m ρ c) (Proc.devRef .tc main_arg6) = _
    unfold hostOps2
    after_results
    exact h7

theorem kept8 (h : Kept m c (W7 m ρ c)) : Kept m c (W8 m ρ c) := by
  obtain ⟨h1, h2, h3, h4, h5, h6, h7⟩ := h
  exact ⟨(W8_of_ne m ρ c main_v29 (by decide)).trans h1, (W8_of_ne m ρ c main_v3 (by decide)).trans h2,
    (W8_of_ne m ρ c main_v6 (by decide)).trans h3, ((W8_arr m ρ c 1).trans (((dat2 (V7 m ρ) c).arrAt_in 1 rfl _).trans (A_eq2 (V7 m ρ) c 1))).trans h4,
    (W8_of_ne m ρ c main_arg4 (by decide)).trans h5, (W8_of_ne m ρ c main_arg5 (by decide)).trans h6,
    (W8_of_ne m ρ c main_arg6 (by decide)).trans h7⟩

theorem kept9 (h : Kept m c (W8 m ρ c)) : Kept m c (W9 m ρ c) := by
  obtain ⟨h1, h2, h3, h4, h5, h6, h7⟩ := h
  refine ⟨?_, ?_, ?_, ?_, ?_, ?_, ?_⟩
  · show StableHlo.after hostOps3 (W8 m ρ c) (Proc.devRef .tc main_v29) = _
    unfold hostOps3
    after_results
    exact h1
  · show StableHlo.after hostOps3 (W8 m ρ c) (Proc.devRef .tc main_v3) = _
    unfold hostOps3
    after_results
    exact h2
  · show StableHlo.after hostOps3 (W8 m ρ c) (Proc.devRef .tc main_v6) = _
    unfold hostOps3
    after_results
    exact h3
  · show StableHlo.after hostOps3 (W8 m ρ c) (Proc.devRef .tc main_v32_0) = _
    unfold hostOps3
    after_results
    exact h4
  · show StableHlo.after hostOps3 (W8 m ρ c) (Proc.devRef .tc main_arg4) = _
    unfold hostOps3
    after_results
    exact h5
  · show StableHlo.after hostOps3 (W8 m ρ c) (Proc.devRef .tc main_arg5) = _
    unfold hostOps3
    after_results
    exact h6
  · show StableHlo.after hostOps3 (W8 m ρ c) (Proc.devRef .tc main_arg6) = _
    unfold hostOps3
    after_results
    exact h7

theorem kept10 (h : Kept m c (W9 m ρ c)) : Kept m c (W10 m ρ c) := by
  obtain ⟨h1, h2, h3, h4, h5, h6, h7⟩ := h
  exact ⟨(W10_of_ne m ρ c main_v29 (by decide)).trans h1, (W10_of_ne m ρ c main_v3 (by decide)).trans h2,
    (W10_of_ne m ρ c main_v6 (by decide)).trans h3, ((W10_arr m ρ c 1).trans (((dat3 (V9 m ρ) c).arrAt_in 1 rfl _).trans (A_eq3 (V9 m ρ) c 1))).trans h4,
    (W10_of_ne m ρ c main_arg4 (by decide)).trans h5, (W10_of_ne m ρ c main_arg5 (by decide)).trans h6,
    (W10_of_ne m ρ c main_arg6 (by decide)).trans h7⟩

theorem kept11 (h : Kept m c (W10 m ρ c)) : Kept m c (W11 m ρ c) := by
  obtain ⟨h1, h2, h3, h4, h5, h6, h7⟩ := h
  refine ⟨?_, ?_, ?_, ?_, ?_, ?_, ?_⟩
  · show StableHlo.after hostOps4 (W10 m ρ c) (Proc.devRef .tc main_v29) = _
    unfold hostOps4
    after_results
    exact h1
  · show StableHlo.after hostOps4 (W10 m ρ c) (Proc.devRef .tc main_v3) = _
    unfold hostOps4
    after_results
    exact h2
  · show StableHlo.after hostOps4 (W10 m ρ c) (Proc.devRef .tc main_v6) = _
    unfold hostOps4
    after_results
    exact h3
  · show StableHlo.after hostOps4 (W10 m ρ c) (Proc.devRef .tc main_v32_0) = _
    unfold hostOps4
    after_results
    exact h4
  · show StableHlo.after hostOps4 (W10 m ρ c) (Proc.devRef .tc main_arg4) = _
    unfold hostOps4
    after_results
    exact h5
  · show StableHlo.after hostOps4 (W10 m ρ c) (Proc.devRef .tc main_arg5) = _
    unfold hostOps4
    after_results
    exact h6
  · show StableHlo.after hostOps4 (W10 m ρ c) (Proc.devRef .tc main_arg6) = _
    unfold hostOps4
    after_results
    exact h7

theorem kept12 (h : Kept m c (W11 m ρ c)) : Kept m c (W12 m ρ c) := by
  obtain ⟨h1, h2, h3, h4, h5, h6, h7⟩ := h
  exact ⟨(W12_of_ne m ρ c main_v29 (by decide)).trans h1, (W12_of_ne m ρ c main_v3 (by decide)).trans h2,
    (W12_of_ne m ρ c main_v6 (by decide)).trans h3, ((W12_arr m ρ c 1).trans (((dat4 (V11 m ρ) c).arrAt_in 1 rfl _).trans (A_eq4 (V11 m ρ) c 1))).trans h4,
    (W12_of_ne m ρ c main_arg4 (by decide)).trans h5, (W12_of_ne m ρ c main_arg5 (by decide)).trans h6,
    (W12_of_ne m ρ c main_arg6 (by decide)).trans h7⟩

theorem kept13 (h : Kept m c (W12 m ρ c)) : Kept m c (W13 m ρ c) := by
  obtain ⟨h1, h2, h3, h4, h5, h6, h7⟩ := h
  refine ⟨?_, ?_, ?_, ?_, ?_, ?_, ?_⟩
  · show StableHlo.after hostOps5 (W12 m ρ c) (Proc.devRef .tc main_v29) = _
    unfold hostOps5
    after_results
    exact h1
  · show StableHlo.after hostOps5 (W12 m ρ c) (Proc.devRef .tc main_v3) = _
    unfold hostOps5
    after_results
    exact h2
  · show StableHlo.after hostOps5 (W12 m ρ c) (Proc.devRef .tc main_v6) = _
    unfold hostOps5
    after_results
    exact h3
  · show StableHlo.after hostOps5 (W12 m ρ c) (Proc.devRef .tc main_v32_0) = _
    unfold hostOps5
    after_results
    exact h4
  · show StableHlo.after hostOps5 (W12 m ρ c) (Proc.devRef .tc main_arg4) = _
    unfold hostOps5
    after_results
    exact h5
  · show StableHlo.after hostOps5 (W12 m ρ c) (Proc.devRef .tc main_arg5) = _
    unfold hostOps5
    after_results
    exact h6
  · show StableHlo.after hostOps5 (W12 m ρ c) (Proc.devRef .tc main_arg6) = _
    unfold hostOps5
    after_results
    exact h7

/-- The same facts at every later boundary, from the first launch's exit on. -/
theorem kept4c : Kept m c (W4 m ρ c) := kept4 m ρ c
theorem kept5c : Kept m c (W5 m ρ c) := kept5 m ρ c (kept4c m ρ c)
theorem kept6c : Kept m c (W6 m ρ c) := kept6 m ρ c (kept5c m ρ c)
theorem kept7c : Kept m c (W7 m ρ c) := kept7 m ρ c (kept6c m ρ c)
theorem kept8c : Kept m c (W8 m ρ c) := kept8 m ρ c (kept7c m ρ c)
theorem kept9c : Kept m c (W9 m ρ c) := kept9 m ρ c (kept8c m ρ c)
theorem kept10c : Kept m c (W10 m ρ c) := kept10 m ρ c (kept9c m ρ c)
theorem kept11c : Kept m c (W11 m ρ c) := kept11 m ρ c (kept10c m ρ c)
theorem kept12c : Kept m c (W12 m ρ c) := kept12 m ρ c (kept11c m ρ c)
theorem kept13c : Kept m c (W13 m ρ c) := kept13 m ρ c (kept12c m ρ c)

/-! ## Layer by layer -/

/-- Before launch 1: the aggregation of the previous stage's output, by the shared chain. -/
theorem w5_agg (hk : Kept m c (W4 m ρ c)) : W5 m ρ c (Proc.devRef .tc main_v45) = aggOf (F := Ideal) (nrm m c) (row m c) (col m c) (feat0 m c) := by
  obtain ⟨h1, h2, h3, h4, h5, h6, h7⟩ := hk
  have hp := w4_h0 m ρ c
  show StableHlo.after hostOps1 (W4 m ρ c) (Proc.devRef .tc main_v45) = _
  unfold hostOps1
  after_results_simp
  rw [h1, h2, h3, hp]
  refine Eq.trans ?_ (aggK_eq (nrm m c) (row m c) (col m c) (feat0 m c))
  rfl

/-- And the layer's weight: its slice of the stacked weights. -/
theorem w5_w (hk : Kept m c (W4 m ρ c)) : W5 m ρ c (Proc.devRef .tc main_v47) = w0Of (F := Ideal) (m ((c : Thread nD τ).loc main_arg4)) := by
  obtain ⟨h1, h2, h3, h4, h5, h6, h7⟩ := hk
  show StableHlo.after hostOps1 (W4 m ρ c) (Proc.devRef .tc main_v47) = _
  unfold hostOps1
  after_results
  rw [h5]
  rfl

/-- After launch 1: the layer of what it found. -/
theorem w6_h1 : W6 m ρ c (Proc.devRef .tc main_v48) = feat1 m c := by
  have hk := kept4c m ρ c
  have hk' := kept5c m ρ c
  refine (W6_arr m ρ c 3).trans ((R1.final3 (V5 m ρ) c).trans ?_)
  show layer (n := 100000) (d := 64) 0x3F183370#32 0x3ECF991F#32 (W5 m ρ c (Proc.devRef .tc main_v45)) (W5 m ρ c (Proc.devRef .tc main_v32_0)) (W5 m ρ c (Proc.devRef .tc main_v47)) = _
  rw [w5_agg m ρ c hk, w5_w m ρ c hk, hk'.2.2.2.1]
  rfl

/-- Before launch 2: the aggregation of the previous stage's output, by the shared chain. -/
theorem w7_agg (hk : Kept m c (W6 m ρ c)) : W7 m ρ c (Proc.devRef .tc main_v61) = aggOf (F := Ideal) (nrm m c) (row m c) (col m c) (feat1 m c) := by
  obtain ⟨h1, h2, h3, h4, h5, h6, h7⟩ := hk
  have hp := w6_h1 m ρ c
  show StableHlo.after hostOps2 (W6 m ρ c) (Proc.devRef .tc main_v61) = _
  unfold hostOps2
  after_results_simp
  rw [h1, h2, h3, hp]
  refine Eq.trans ?_ (aggK_eq (nrm m c) (row m c) (col m c) (feat1 m c))
  rfl

/-- And the layer's weight: its slice of the stacked weights. -/
theorem w7_w (hk : Kept m c (W6 m ρ c)) : W7 m ρ c (Proc.devRef .tc main_v63) = w1Of (F := Ideal) (m ((c : Thread nD τ).loc main_arg4)) := by
  obtain ⟨h1, h2, h3, h4, h5, h6, h7⟩ := hk
  show StableHlo.after hostOps2 (W6 m ρ c) (Proc.devRef .tc main_v63) = _
  unfold hostOps2
  after_results
  rw [h5]
  rfl

/-- After launch 2: the layer of what it found. -/
theorem w8_h2 : W8 m ρ c (Proc.devRef .tc main_v64) = feat2 m c := by
  have hk := kept6c m ρ c
  have hk' := kept7c m ρ c
  refine (W8_arr m ρ c 3).trans ((R2.final3 (V7 m ρ) c).trans ?_)
  show layer (n := 100000) (d := 64) 0x3F46E010#32 0x3E647FBE#32 (W7 m ρ c (Proc.devRef .tc main_v61)) (W7 m ρ c (Proc.devRef .tc main_v32_0)) (W7 m ρ c (Proc.devRef .tc main_v63)) = _
  rw [w7_agg m ρ c hk, w7_w m ρ c hk, hk'.2.2.2.1]
  rfl

/-- Before launch 3: the aggregation of the previous stage's output, by the shared chain. -/
theorem w9_agg (hk : Kept m c (W8 m ρ c)) : W9 m ρ c (Proc.devRef .tc main_v77) = aggOf (F := Ideal) (nrm m c) (row m c) (col m c) (feat2 m c) := by
  obtain ⟨h1, h2, h3, h4, h5, h6, h7⟩ := hk
  have hp := w8_h2 m ρ c
  show StableHlo.after hostOps3 (W8 m ρ c) (Proc.devRef .tc main_v77) = _
  unfold hostOps3
  after_results_simp
  rw [h1, h2, h3, hp]
  refine Eq.trans ?_ (aggK_eq (nrm m c) (row m c) (col m c) (feat2 m c))
  rfl

/-- And the layer's weight: its slice of the stacked weights. -/
theorem w9_w (hk : Kept m c (W8 m ρ c)) : W9 m ρ c (Proc.devRef .tc main_v79) = w2Of (F := Ideal) (m ((c : Thread nD τ).loc main_arg4)) := by
  obtain ⟨h1, h2, h3, h4, h5, h6, h7⟩ := hk
  show StableHlo.after hostOps3 (W8 m ρ c) (Proc.devRef .tc main_v79) = _
  unfold hostOps3
  after_results
  rw [h5]
  rfl

/-- After launch 3: the layer of what it found. -/
theorem w10_h3 : W10 m ρ c (Proc.devRef .tc main_v80) = feat3 m c := by
  have hk := kept8c m ρ c
  have hk' := kept9c m ρ c
  refine (W10_arr m ρ c 3).trans ((R3.final3 (V9 m ρ) c).trans ?_)
  show layer (n := 100000) (d := 64) 0x3F588995#32 0x3E1DD9AD#32 (W9 m ρ c (Proc.devRef .tc main_v77)) (W9 m ρ c (Proc.devRef .tc main_v32_0)) (W9 m ρ c (Proc.devRef .tc main_v79)) = _
  rw [w9_agg m ρ c hk, w9_w m ρ c hk, hk'.2.2.2.1]
  rfl

/-- Before launch 4: the aggregation of the previous stage's output, by the shared chain. -/
theorem w11_agg (hk : Kept m c (W10 m ρ c)) : W11 m ρ c (Proc.devRef .tc main_v93) = aggOf (F := Ideal) (nrm m c) (row m c) (col m c) (feat3 m c) := by
  obtain ⟨h1, h2, h3, h4, h5, h6, h7⟩ := hk
  have hp := w10_h3 m ρ c
  show StableHlo.after hostOps4 (W10 m ρ c) (Proc.devRef .tc main_v93) = _
  unfold hostOps4
  after_results_simp
  rw [h1, h2, h3, hp]
  refine Eq.trans ?_ (aggK_eq (nrm m c) (row m c) (col m c) (feat3 m c))
  rfl

/-- And the layer's weight: its slice of the stacked weights. -/
theorem w11_w (hk : Kept m c (W10 m ρ c)) : W11 m ρ c (Proc.devRef .tc main_v95) = w3Of (F := Ideal) (m ((c : Thread nD τ).loc main_arg4)) := by
  obtain ⟨h1, h2, h3, h4, h5, h6, h7⟩ := hk
  show StableHlo.after hostOps4 (W10 m ρ c) (Proc.devRef .tc main_v95) = _
  unfold hostOps4
  after_results
  rw [h5]
  rfl

/-- After launch 4: the layer of what it found. -/
theorem w12_h4 : W12 m ρ c (Proc.devRef .tc main_v96) = feat4 m c := by
  have hk := kept10c m ρ c
  have hk' := kept11c m ρ c
  refine (W12_arr m ρ c 3).trans ((R4.final3 (V11 m ρ) c).trans ?_)
  show layer (n := 100000) (d := 64) 0x3F61D8F9#32 0x3DF1383B#32 (W11 m ρ c (Proc.devRef .tc main_v93)) (W11 m ρ c (Proc.devRef .tc main_v32_0)) (W11 m ρ c (Proc.devRef .tc main_v95)) = _
  rw [w11_agg m ρ c hk, w11_w m ρ c hk, hk'.2.2.2.1]
  rfl

/-! ## The last launch -/

theorem w13_h4 : W13 m ρ c (Proc.devRef .tc main_v96) = feat4 m c := by
  show StableHlo.after hostOps5 (W12 m ρ c) (Proc.devRef .tc main_v96) = _
  unfold hostOps5
  after_results
  exact w12_h4 m ρ c

theorem w13_wT5 : W13 m ρ c (Proc.devRef .tc main_v97) = wT5Of (F := Ideal) (m ((c : Thread nD τ).loc main_arg5)) := by
  have hk := kept12c m ρ c
  show StableHlo.after hostOps5 (W12 m ρ c) (Proc.devRef .tc main_v97) = _
  unfold hostOps5
  after_results
  rw [hk.2.2.2.2.2.1]
  rfl

theorem w13_b5 : W13 m ρ c (Proc.devRef .tc main_v98) = shapeCast S1x64 (m ((c : Thread nD τ).loc main_arg6)) shapeCasts_S64_S1x64 := by
  have hk := kept12c m ρ c
  show StableHlo.after hostOps5 (W12 m ρ c) (Proc.devRef .tc main_v98) = _
  unfold hostOps5
  after_results
  rw [hk.2.2.2.2.2.2]
  rfl

/-- THE RESULT BUFFER at the last boundary: the specification's network of the argument arrays. -/
theorem result :
    W14 m ρ c (Proc.devRef .tc main_v99)
      = specOut (m ((c : Thread nD τ).loc main_arg0)) (normOf (F := Ideal) (m ((c : Thread nD τ).loc main_arg1))) (rowOf (m ((c : Thread nD τ).loc main_arg1))) (colOf (m ((c : Thread nD τ).loc main_arg1))) (wT0Of (F := Ideal) (m ((c : Thread nD τ).loc main_arg2))) (rowVec (m ((c : Thread nD τ).loc main_arg3)))
          (w0Of (F := Ideal) (m ((c : Thread nD τ).loc main_arg4))) (w1Of (F := Ideal) (m ((c : Thread nD τ).loc main_arg4))) (w2Of (F := Ideal) (m ((c : Thread nD τ).loc main_arg4))) (w3Of (F := Ideal) (m ((c : Thread nD τ).loc main_arg4))) (wT5Of (F := Ideal) (m ((c : Thread nD τ).loc main_arg5))) (rowVec (m ((c : Thread nD τ).loc main_arg6))) := by
  refine (W14_arr m ρ c 3).trans ((R5.final3 (V13 m ρ) c).trans ?_)
  show affine (n := 100000) (K := 64) (d := 64) (W13 m ρ c (Proc.devRef .tc main_v96)) (W13 m ρ c (Proc.devRef .tc main_v97)) (W13 m ρ c (Proc.devRef .tc main_v98)) = _
  rw [w13_h4, w13_wT5, w13_b5, affine_cast_row]
  rfl

end Cert.Gcn.K

end
-- ==== Proof.lean ====
/-
  A four-layer graph propagation network (GCNII) on 100000 nodes and 1.6 million edges, as six kernel launches among host
  operations, against its plain reference: equal results on the extended reals.

  Both programs compute from the edge list the source and target node of every edge (self loops appended), the symmetric
  normalisation 1/sqrt(deg) at the two ends of an edge, a first dense map x · w0ᵀ + b0 with its rectified value, then four
  times: aggregate the current features along the edges, mix with the initial residual, hh = c₁ · agg + c₂ · x0, and
  return max (A · hh + B · (hh · w)) 0; last a dense map h · w1ᵀ + b1. The edge work is the same host operations in both
  programs. The dense stages are host operations in the reference and kernel launches in the kernel program: each launch
  walks twenty row blocks of 5000 rows and computes the same entry-by-entry function of its blocks; an entry of every
  dense stage reads one row of the row operands, so the blocks written back tile the array with the stage's function of
  the WHOLE arrays. A change of float format is the identity on the extended reals, the vector unit's product into a zero
  accumulator and the host's dot_general are the same row-by-column sum, and every literal is the same word in both
  programs; no law beyond comparing sums and products term by term is used, so the finiteness of the inputs is never
  opened. The idealization rewrote nothing (the ledger is empty).
-/
import proofs.«152299_j41729902247981_1_alg».proof.Defs
import proofs.«152299_j41729902247981_1_alg».proof.Proof.Gen.Kernel
import proofs.«152299_j41729902247981_1_alg».proof.Proof.Gen.Kernel.Skeleton
import proofs.«152299_j41729902247981_1_alg».proof.Proof.Gen.Kernel.Launch
import proofs.«152299_j41729902247981_1_alg».proof.Proof.Gen.Kernel.Points
import proofs.«152299_j41729902247981_1_alg».proof.Proof.Gen.Kernel.Frame
import proofs.«152299_j41729902247981_1_alg».proof.Proof.Gen.KernelIdeal
import proofs.«152299_j41729902247981_1_alg».proof.Proof.Gen.KernelIdeal.Skeleton
import proofs.«152299_j41729902247981_1_alg».proof.Proof.Gen.KernelIdeal.Launch
import proofs.«152299_j41729902247981_1_alg».proof.Proof.Gen.KernelIdeal.Points
import proofs.«152299_j41729902247981_1_alg».proof.Proof.Gen.KernelIdeal.Frame
import proofs.«152299_j41729902247981_1_alg».proof.Proof.Gen.ReferenceIdeal
import proofs.«152299_j41729902247981_1_alg».proof.Proof.RefRun
import proofs.«152299_j41729902247981_1_alg».proof.Proof.RefEq
import proofs.«152299_j41729902247981_1_alg».proof.Proof.KRun
import proofs.«152299_j41729902247981_1_alg».proof.Proof.KChain
import proofs.«152299_j41729902247981_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result: the kernel program's result buffer
    holds the specification's network of the arguments (the chain through its fourteen boundaries), and the reference's
    composed term is the same network of the same arguments. -/
theorem algebraic : Cert.algebraic_KernelIdeal_ReferenceIdeal := by
  intro m ρ m' ρ' _ hagree
  refine ⟨fun c => Cert.KernelIdeal.Gen.W14 m ρ c (Proc.devRef .tc Cert.KernelIdeal.main_v99),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Gcn.res_eq, Cert.Gcn.refOut_eq, (hagree c).1, (hagree c).2.1, (hagree c).2.2.1, (hagree c).2.2.2.1,
    (hagree c).2.2.2.2.1, (hagree c).2.2.2.2.2.1, (hagree c).2.2.2.2.2.2]
  exact (Cert.Gcn.K.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
